-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v16)) (v1 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_v17) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_v51) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1 : Shape := ⟨1, ![1]⟩
abbrev S1x1x1024 : Shape := ⟨3, ![1, 1, 1024]⟩
abbrev S128000x1024 : Shape := ⟨2, ![128000, 1024]⟩
abbrev S3072x1024 : Shape := ⟨2, ![3072, 1024]⟩
abbrev S3072 : Shape := ⟨1, ![3072]⟩
abbrev S128000 : Shape := ⟨1, ![128000]⟩
abbrev S_ : Shape := ⟨0, ![]⟩

class Facts : Prop where
  bcast_S_S1x1x1024 : S_.BroadcastsInDim S1x1x1024 (![] : Fin 0 → Fin S1x1x1024.rank)
  reducesTo_S1x1x1024_S_d0_1_2 : S1x1x1024.ReducesTo [0, 1, 2] S_
  h_S_ : 0 < S_.numel
  bcast_S_S128000x1024 : S_.BroadcastsInDim S128000x1024 (![] : Fin 0 → Fin S128000x1024.rank)
  reducesTo_S128000x1024_S_d0_1 : S128000x1024.ReducesTo [0, 1] S_
  bcast_S_S3072x1024 : S_.BroadcastsInDim S3072x1024 (![] : Fin 0 → Fin S3072x1024.rank)
  reducesTo_S3072x1024_S_d0_1 : S3072x1024.ReducesTo [0, 1] S_
  bcast_S_S3072 : S_.BroadcastsInDim S3072 (![] : Fin 0 → Fin S3072.rank)
  reducesTo_S3072_S_d0 : S3072.ReducesTo [0] S_
  bcast_S_S128000 : S_.BroadcastsInDim S128000 (![] : Fin 0 → Fin S128000.rank)
  reducesTo_S128000_S_d0 : S128000.ReducesTo [0] S_

variable [Facts]

def fn_part2 {F : FTy → Type} [FloatOps F] (main_arg8 : FVec F S128000 .f32) (main_v33 : IVec S_ 1) : IVec S_ 1 :=
  let main_v34 : FVec F S128000 .f32 := Host.absf main_arg8
  let main_cst_12 : FVec F S_ .f32 := constant S_ .f32 0x7F800000#32
  let main_v35 : FVec F S128000 .f32 := broadcastInDim S128000 ![] bcast_S_S128000 main_cst_12
  let main_v36 : IVec S128000 1 := cmpf .olt main_v34 main_v35
  let main_c_13 : IVec S_ 1 := constantI S_ 1 1#1
  let main_v37 : IVec S_ 1 := (fun x v => Host.reduce IntOp.andi x v reducesTo_S128000_S_d0 h_S_) main_v36 main_c_13
  let main_v38 : IVec S_ 1 := andi main_v33 main_v37
  main_v38

def fn_part1 {F : FTy → Type} [FloatOps F] (main_arg5 : FVec F S3072 .f32) (main_arg6 : FVec F S3072 .f32) (main_arg7 : FVec F S128000x1024 .f32) (main_arg8 : FVec F S128000 .f32) (main_v13 : IVec S_ 1) (main_v16 : IVec S3072x1024 1) : IVec S_ 1 :=
  let main_c_5 : IVec S_ 1 := constantI S_ 1 1#1
  let main_v17 : IVec S_ 1 := (fun x v => Host.reduce IntOp.andi x v reducesTo_S3072x1024_S_d0_1 h_S_) main_v16 main_c_5
  let main_v18 : IVec S_ 1 := andi main_v13 main_v17
  let main_v19 : FVec F S3072 .f32 := Host.absf main_arg5
  let main_cst_6 : FVec F S_ .f32 := constant S_ .f32 0x7F800000#32
  let main_v20 : FVec F S3072 .f32 := broadcastInDim S3072 ![] bcast_S_S3072 main_cst_6
  let main_v21 : IVec S3072 1 := cmpf .olt main_v19 main_v20
  let main_c_7 : IVec S_ 1 := constantI S_ 1 1#1
  let main_v22 : IVec S_ 1 := (fun x v => Host.reduce IntOp.andi x v reducesTo_S3072_S_d0 h_S_) main_v21 main_c_7
  let main_v23 : IVec S_ 1 := andi main_v18 main_v22
  let main_v24 : FVec F S3072 .f32 := Host.absf main_arg6
  let main_cst_8 : FVec F S_ .f32 := constant S_ .f32 0x7F800000#32
  let main_v25 : FVec F S3072 .f32 := broadcastInDim S3072 ![] bcast_S_S3072 main_cst_8
  let main_v26 : IVec S3072 1 := cmpf .olt main_v24 main_v25
  let main_c_9 : IVec S_ 1 := constantI S_ 1 1#1
  let main_v27 : IVec S_ 1 := (fun x v => Host.reduce IntOp.andi x v reducesTo_S3072_S_d0 h_S_) main_v26 main_c_9
  let main_v28 : IVec S_ 1 := andi main_v23 main_v27
  let main_v29 : FVec F S128000x1024 .f32 := Host.absf main_arg7
  let main_cst_10 : FVec F S_ .f32 := constant S_ .f32 0x7F800000#32
  let main_v30 : FVec F S128000x1024 .f32 := broadcastInDim S128000x1024 ![] bcast_S_S128000x1024 main_cst_10
  let main_v31 : IVec S128000x1024 1 := cmpf .olt main_v29 main_v30
  let main_c_11 : IVec S_ 1 := constantI S_ 1 1#1
  let main_v32 : IVec S_ 1 := (fun x v => Host.reduce IntOp.andi x v reducesTo_S128000x1024_S_d0_1 h_S_) main_v31 main_c_11
  let main_v33 : IVec S_ 1 := andi main_v28 main_v32
  fn_part2 (F := F) main_arg8 main_v33

def fn {F : FTy → Type} [FloatOps F] (main_arg0 : IVec S1 32) (main_arg1 : FVec F S1x1x1024 .f32) (main_arg2 : FVec F S128000x1024 .f32) (main_arg3 : FVec F S3072x1024 .f32) (main_arg4 : FVec F S3072x1024 .f32) (main_arg5 : FVec F S3072 .f32) (main_arg6 : FVec F S3072 .f32) (main_arg7 : FVec F S128000x1024 .f32) (main_arg8 : FVec F S128000 .f32) : IVec S_ 1 :=
  let main_v0 : FVec F S1x1x1024 .f32 := Host.absf main_arg1
  let main_cst : FVec F S_ .f32 := constant S_ .f32 0x7F800000#32
  let main_v1 : FVec F S1x1x1024 .f32 := broadcastInDim S1x1x1024 ![] bcast_S_S1x1x1024 main_cst
  let main_v2 : IVec S1x1x1024 1 := cmpf .olt main_v0 main_v1
  let main_c : IVec S_ 1 := constantI S_ 1 1#1
  let main_v3 : IVec S_ 1 := (fun x v => Host.reduce IntOp.andi x v reducesTo_S1x1x1024_S_d0_1_2 h_S_) main_v2 main_c
  let main_v4 : FVec F S128000x1024 .f32 := Host.absf main_arg2
  let main_cst_0 : FVec F S_ .f32 := constant S_ .f32 0x7F800000#32
  let main_v5 : FVec F S128000x1024 .f32 := broadcastInDim S128000x1024 ![] bcast_S_S128000x1024 main_cst_0
  let main_v6 : IVec S128000x1024 1 := cmpf .olt main_v4 main_v5
  let main_c_1 : IVec S_ 1 := constantI S_ 1 1#1
  let main_v7 : IVec S_ 1 := (fun x v => Host.reduce IntOp.andi x v reducesTo_S128000x1024_S_d0_1 h_S_) main_v6 main_c_1
  let main_v8 : IVec S_ 1 := andi main_v3 main_v7
  let main_v9 : FVec F S3072x1024 .f32 := Host.absf main_arg3
  let main_cst_2 : FVec F S_ .f32 := constant S_ .f32 0x7F800000#32
  let main_v10 : FVec F S3072x1024 .f32 := broadcastInDim S3072x1024 ![] bcast_S_S3072x1024 main_cst_2
  let main_v11 : IVec S3072x1024 1 := cmpf .olt main_v9 main_v10
  let main_c_3 : IVec S_ 1 := constantI S_ 1 1#1
  let main_v12 : IVec S_ 1 := (fun x v => Host.reduce IntOp.andi x v reducesTo_S3072x1024_S_d0_1 h_S_) main_v11 main_c_3
  let main_v13 : IVec S_ 1 := andi main_v8 main_v12
  let main_v14 : FVec F S3072x1024 .f32 := Host.absf main_arg4
  let main_cst_4 : FVec F S_ .f32 := constant S_ .f32 0x7F800000#32
  let main_v15 : FVec F S3072x1024 .f32 := broadcastInDim S3072x1024 ![] bcast_S_S3072x1024 main_cst_4
  let main_v16 : IVec S3072x1024 1 := cmpf .olt main_v14 main_v15
  fn_part1 (F := F) main_arg5 main_arg6 main_arg7 main_arg8 main_v13 main_v16
-- ==== Kernel.lean ====
abbrev S1 : Shape := ⟨1, ![1]⟩
abbrev S1x1x1024 : Shape := ⟨3, ![1, 1, 1024]⟩
abbrev S128000x1024 : Shape := ⟨2, ![128000, 1024]⟩
abbrev S3072x1024 : Shape := ⟨2, ![3072, 1024]⟩
abbrev S3072 : Shape := ⟨1, ![3072]⟩
abbrev S128000 : Shape := ⟨1, ![128000]⟩
abbrev S_ : Shape := ⟨0, ![]⟩
abbrev S1x1024 : Shape := ⟨2, ![1, 1024]⟩
abbrev S1024 : Shape := ⟨1, ![1024]⟩
abbrev S1x3072 : Shape := ⟨2, ![1, 3072]⟩
abbrev S1x128000 : Shape := ⟨2, ![1, 128000]⟩
abbrev S2560x1024 : Shape := ⟨2, ![2560, 1024]⟩
abbrev S1x2560 : Shape := ⟨2, ![1, 2560]⟩
abbrev S1x1 : Shape := ⟨2, ![1, 1]⟩

abbrev nBuf : Space → Nat
  | .hbm => 48
  | .vmem => 14
  | .smem => 0
  | _ => 0

abbrev bufTy : (tb : Table) → Fin (tcTables nBuf tb) → BufTy
  | .hbm, ⟨0, _⟩ => ⟨S1, .i32⟩
  | .hbm, ⟨1, _⟩ => ⟨S1x1x1024, .f32⟩
  | .hbm, ⟨2, _⟩ => ⟨S128000x1024, .f32⟩
  | .hbm, ⟨3, _⟩ => ⟨S3072x1024, .f32⟩
  | .hbm, ⟨4, _⟩ => ⟨S3072x1024, .f32⟩
  | .hbm, ⟨5, _⟩ => ⟨S3072, .f32⟩
  | .hbm, ⟨6, _⟩ => ⟨S3072, .f32⟩
  | .hbm, ⟨7, _⟩ => ⟨S128000x1024, .f32⟩
  | .hbm, ⟨8, _⟩ => ⟨S128000, .f32⟩
  | .hbm, ⟨9, _⟩ => ⟨S_, .i32⟩
  | .hbm, ⟨10, _⟩ => ⟨S_, .i32⟩
  | .hbm, ⟨11, _⟩ => ⟨S_, .i1⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S_, .i32⟩
  | .hbm, ⟨17, _⟩ => ⟨S_, .i1⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S_, .i32⟩
  | .hbm, ⟨22, _⟩ => ⟨S_, .i32⟩
  | .hbm, ⟨23, _⟩ => ⟨S1x1024, .f32⟩
  | .hbm, ⟨24, _⟩ => ⟨S1024, .f32⟩
  | .hbm, ⟨25, _⟩ => ⟨S1x1024, .f32⟩
  | .hbm, ⟨26, _⟩ => ⟨S1x1024, .f32⟩
  | .hbm, ⟨27, _⟩ => ⟨S1x3072, .f32⟩
  | .hbm, ⟨28, _⟩ => ⟨S1x3072, .f32⟩
  | .hbm, ⟨29, _⟩ => ⟨S1x1024, .f32⟩
  | .hbm, ⟨30, _⟩ => ⟨S1x128000, .f32⟩
  | .hbm, ⟨31, _⟩ => ⟨S1x128000, .f32⟩
  | .hbm, ⟨32, _⟩ => ⟨S_, .f32⟩
  | .hbm, ⟨33, _⟩ => ⟨S1, .f32⟩
  | .hbm, ⟨34, _⟩ => ⟨S_, .f32⟩
  | .hbm, ⟨35, _⟩ => ⟨S1, .f32⟩
  | .hbm, ⟨36, _⟩ => ⟨S1, .f32⟩
  | .hbm, ⟨37, _⟩ => ⟨S1x1, .f32⟩
  | .hbm, ⟨38, _⟩ => ⟨S1x128000, .f32⟩
  | .hbm, ⟨39, _⟩ => ⟨S1x128000, .f32⟩
  | .hbm, ⟨40, _⟩ => ⟨S1x128000, .f32⟩
  | .hbm, ⟨41, _⟩ => ⟨S_, .f32⟩
  | .hbm, ⟨42, _⟩ => ⟨S1, .f32⟩
  | .hbm, ⟨43, _⟩ => ⟨S1x1, .f32⟩
  | .hbm, ⟨44, _⟩ => ⟨S1x1, .f32⟩
  | .hbm, ⟨45, _⟩ => ⟨S1x128000, .f32⟩
  | .hbm, ⟨46, _⟩ => ⟨S1x128000, .f32⟩
  | .hbm, ⟨47, _⟩ => ⟨S1x1x1024, .f32⟩
  | .local _ .vmem, ⟨0, _⟩ => ⟨S1x1024, .f32⟩
  | .local _ .vmem, ⟨1, _⟩ => ⟨S1x1024, .f32⟩
  | .local _ .vmem, ⟨2, _⟩ => ⟨S3072x1024, .f32⟩
  | .local _ .vmem, ⟨3, _⟩ => ⟨S3072x1024, .f32⟩
  | .local _ .vmem, ⟨4, _⟩ => ⟨S1x3072, .f32⟩
  | .local _ .vmem, ⟨5, _⟩ => ⟨S1x3072, .f32⟩
  | .local _ .vmem, ⟨6, _⟩ => ⟨S1x1024, .f32⟩
  | .local _ .vmem, ⟨7, _⟩ => ⟨S1x1024, .f32⟩
  | .local _ .vmem, ⟨8, _⟩ => ⟨S2560x1024, .f32⟩
  | .local _ .vmem, ⟨9, _⟩ => ⟨S2560x1024, .f32⟩
  | .local _ .vmem, ⟨10, _⟩ => ⟨S1x2560, .f32⟩
  | .local _ .vmem, ⟨11, _⟩ => ⟨S1x2560, .f32⟩
  | .local _ .vmem, ⟨12, _⟩ => ⟨S1x2560, .f32⟩
  | .local _ .vmem, ⟨13, _⟩ => ⟨S1x2560, .f32⟩
  | _, _ => ⟨S1, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_c : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_c_1 : Ref sig .tc := ⟨.hbm, 15, rfl⟩
abbrev main_c_2 : Ref sig .tc := ⟨.hbm, 16, rfl⟩
abbrev main_v4 : Ref sig .tc := ⟨.hbm, 17, rfl⟩
abbrev main_c_3 : Ref sig .tc := ⟨.hbm, 18, rfl⟩
abbrev main_c_4 : Ref sig .tc := ⟨.hbm, 19, rfl⟩
abbrev main_v5 : Ref sig .tc := ⟨.hbm, 20, rfl⟩
abbrev main_c_5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_call0_cst : Ref sig .tc := ⟨.hbm, 32, rfl⟩
abbrev main_call0_v0 : Ref sig .tc := ⟨.hbm, 33, rfl⟩
abbrev main_call0_cst_0 : Ref sig .tc := ⟨.hbm, 34, rfl⟩
abbrev main_call0_v1 : Ref sig .tc := ⟨.hbm, 35, rfl⟩
abbrev main_call0_v2 : Ref sig .tc := ⟨.hbm, 36, rfl⟩
abbrev main_call0_v3 : Ref sig .tc := ⟨.hbm, 37, rfl⟩
abbrev main_call0_v4 : Ref sig .tc := ⟨.hbm, 38, rfl⟩
abbrev main_call0_v5 : Ref sig .tc := ⟨.hbm, 39, rfl⟩
abbrev main_call0_v6 : Ref sig .tc := ⟨.hbm, 40, rfl⟩
abbrev main_call0_cst_1 : Ref sig .tc := ⟨.hbm, 41, rfl⟩
abbrev main_call0_v7 : Ref sig .tc := ⟨.hbm, 42, rfl⟩
abbrev main_call0_v8 : Ref sig .tc := ⟨.hbm, 43, rfl⟩
abbrev main_call0_v9 : Ref sig .tc := ⟨.hbm, 44, rfl⟩
abbrev main_call0_v10 : Ref sig .tc := ⟨.hbm, 45, rfl⟩
abbrev main_v16 : Ref sig .tc := ⟨.hbm, 46, rfl⟩
abbrev main_v17 : Ref sig .tc := ⟨.hbm, 47, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc1_stg0_0 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc1_sem0_0 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S3072x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S3072x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x3072 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x3072 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 1 → Memref sig .tc .vmem S1x1024 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S2560x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x2560 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x2560 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  shapeCasts_S1_S_ : S1.ShapeCasts S_
  sliceFits_S128000x1024_S1x1024 : S128000x1024.Slices (fun _ => 0) S1x1024
  h_S_ : 0 < S_.numel
  shapeCasts_S1x1024_S1024 : S1x1024.ShapeCasts S1024
  shapeCasts_S1024_S1x1024 : S1024.ShapeCasts S1x1024
  shapeCasts_S1x1x1024_S1x1024 : S1x1x1024.ShapeCasts S1x1024
  shapeCasts_S3072_S1x3072 : S3072.ShapeCasts S1x3072
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  bitsLt_bf16_f32 : FTy.bits .bf16 < FTy.bits .f32
  inb_S3072x1024_S3072x1024_0_0 : ∀ a, (![0, 0] : Fin 2 → Nat) a + S3072x1024.size a ≤ S3072x1024.size a
  h_S3072x1024 : 0 < S3072x1024.numel
  inb_S1x3072_S1x3072_0_0 : ∀ a, (![0, 0] : Fin 2 → Nat) a + S1x3072.size a ≤ S1x3072.size a
  h_S1x3072 : 0 < S1x3072.numel
  shapeCasts_S1x3072_S1x3072 : S1x3072.ShapeCasts S1x3072
  slices_S1x3072_o0_0_S1x1024 : S1x3072.Slices ![0, 0] S1x1024
  slices_S1x3072_o0_1024_S1x1024 : S1x3072.Slices ![0, 1024] S1x1024
  slices_S1x3072_o0_2048_S1x1024 : S1x3072.Slices ![0, 2048] S1x1024
  shapeCasts_S128000_S1x128000 : S128000.ShapeCasts S1x128000
  inb_S2560x1024_S2560x1024_0_0 : ∀ a, (![0, 0] : Fin 2 → Nat) a + S2560x1024.size a ≤ S2560x1024.size a
  h_S2560x1024 : 0 < S2560x1024.numel
  inb_S1x2560_S1x2560_0_0 : ∀ a, (![0, 0] : Fin 2 → Nat) a + S1x2560.size a ≤ S1x2560.size a
  h_S1x2560 : 0 < S1x2560.numel
  shapeCasts_S1x2560_S1x2560 : S1x2560.ShapeCasts S1x2560
  reducesTo_S1x128000_S1_d1 : S1x128000.ReducesTo [1] S1
  bcast_S_S1 : S_.BroadcastsInDim S1 (![] : Fin 0 → Fin S1.rank)
  bcast_S1_S1x1_0 : S1.BroadcastsInDim S1x1 (![0] : Fin 1 → Fin S1x1.rank)
  bcast_S1x1_S1x128000_0_1 : S1x1.BroadcastsInDim S1x128000 (![0, 1] : Fin 2 → Fin S1x128000.rank)
  shapeCasts_S1x1024_S1x1x1024 : S1x1024.ShapeCasts S1x1x1024
  dot_S1x1024_S3072x1024_S1x3072_1_1_0_0_n_n_wf : DotDims.WF S1x1024 S3072x1024 S1x3072 [1] [1] [0] [0] [] []
  dot_S1x1024_S2560x1024_S1x2560_1_1_0_0_n_n_wf : DotDims.WF S1x1024 S2560x1024 S1x2560 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1x1024.size a ≤ S1x1024.size a
  hwx0_0 : ∀ i : grid0.Coords, EltTy.bits .f32 = 32 ∨ (Rect.block (s := S1x1024) S1x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x1024.size a ≤ S1x1024.size a
  hwx0_1 : ∀ i : grid0.Coords, EltTy.bits .f32 = 32 ∨ (Rect.block (s := S1x1024) S1x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S3072x1024.size a ≤ S3072x1024.size a
  hwx0_2 : ∀ i : grid0.Coords, EltTy.bits .f32 = 32 ∨ (Rect.block (s := S3072x1024) S3072x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S3072x1024.size a ≤ S3072x1024.size a
  hwx0_3 : ∀ i : grid0.Coords, EltTy.bits .f32 = 32 ∨ (Rect.block (s := S3072x1024) S3072x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x3072.size a ≤ S1x3072.size a
  hwx0_4 : ∀ i : grid0.Coords, EltTy.bits .f32 = 32 ∨ (Rect.block (s := S1x3072) S1x3072.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x3072.size a ≤ S1x3072.size a
  hwx0_5 : ∀ i : grid0.Coords, EltTy.bits .f32 = 32 ∨ (Rect.block (s := S1x3072) S1x3072.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1024.size a ≤ S1x1024.size a
  hwx0_6 : ∀ i : grid0.Coords, EltTy.bits .f32 = 32 ∨ (Rect.block (s := S1x1024) S1x1024.size (cc0_transform_6 i) (hinb0_6 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S1x1024.size a ≤ S1x1024.size a
  hwx1_0 : ∀ i : grid1.Coords, EltTy.bits .f32 = 32 ∨ (Rect.block (s := S1x1024) S1x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2560x1024.size a ≤ S128000x1024.size a
  hwx1_1 : ∀ i : grid1.Coords, EltTy.bits .f32 = 32 ∨ (Rect.block (s := S128000x1024) S2560x1024.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x2560.size a ≤ S1x128000.size a
  hwx1_2 : ∀ i : grid1.Coords, EltTy.bits .f32 = 32 ∨ (Rect.block (s := S1x128000) S1x2560.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x2560.size a ≤ S1x128000.size a
  hwx1_3 : ∀ i : grid1.Coords, EltTy.bits .f32 = 32 ∨ (Rect.block (s := S1x128000) S1x2560.size (cc1_transform_3 i) (hinb1_3 i)).WholeWords (EltTy.packing .f32)

variable [Facts₀]

def dot_S1x1024_S3072x1024_S1x3072_1_1_0_0_n_n : DotDims S1x1024 S3072x1024 S1x3072 where
  lhsContracting := [1]
  rhsContracting := [1]
  lhsNonContracting := [0]
  rhsNonContracting := [0]
  lhsBatch := []
  rhsBatch := []
  wf := dot_S1x1024_S3072x1024_S1x3072_1_1_0_0_n_n_wf
def dot_S1x1024_S2560x1024_S1x2560_1_1_0_0_n_n : DotDims S1x1024 S2560x1024 S1x2560 where
  lhsContracting := [1]
  rhsContracting := [1]
  lhsNonContracting := [0]
  rhsNonContracting := [0]
  lhsBatch := []
  rhsBatch := []
  wf := dot_S1x1024_S2560x1024_S1x2560_1_1_0_0_n_n_wf

abbrev win0_0 : Pipeline.Window sig grid0 :=
  Pipeline.Window.ofSpec (Memref.whole main_v9) S1x1024.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v10) S1x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S3072x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S3072x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v11) S1x3072.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v12) S1x3072.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v13) S1x1024.size cc0_transform_6 reads0_6 true true 1 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v13) S1x1024.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_arg7) S2560x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v14) S1x2560.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v15) S1x2560.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S1 : Shape := ⟨1, ![1]⟩
abbrev S1x1x1024 : Shape := ⟨3, ![1, 1, 1024]⟩
abbrev S128000x1024 : Shape := ⟨2, ![128000, 1024]⟩
abbrev S3072x1024 : Shape := ⟨2, ![3072, 1024]⟩
abbrev S3072 : Shape := ⟨1, ![3072]⟩
abbrev S128000 : Shape := ⟨1, ![128000]⟩
abbrev S_ : Shape := ⟨0, ![]⟩
abbrev S1x1 : Shape := ⟨2, ![1, 1]⟩
abbrev S1x1024 : Shape := ⟨2, ![1, 1024]⟩
abbrev S1024x3072 : Shape := ⟨2, ![1024, 3072]⟩
abbrev S1x3072 : Shape := ⟨2, ![1, 3072]⟩
abbrev S1024x128000 : Shape := ⟨2, ![1024, 128000]⟩
abbrev S1x128000 : Shape := ⟨2, ![1, 128000]⟩

abbrev nBuf : Space → Nat
  | .hbm => 82
  | .vmem => 0
  | .smem => 0
  | _ => 0

abbrev bufTy : (tb : Table) → Fin (tcTables nBuf tb) → BufTy
  | .hbm, ⟨0, _⟩ => ⟨S1, .i32⟩
  | .hbm, ⟨1, _⟩ => ⟨S1x1x1024, .f32⟩
  | .hbm, ⟨2, _⟩ => ⟨S128000x1024, .f32⟩
  | .hbm, ⟨3, _⟩ => ⟨S3072x1024, .f32⟩
  | .hbm, ⟨4, _⟩ => ⟨S3072x1024, .f32⟩
  | .hbm, ⟨5, _⟩ => ⟨S3072, .f32⟩
  | .hbm, ⟨6, _⟩ => ⟨S3072, .f32⟩
  | .hbm, ⟨7, _⟩ => ⟨S128000x1024, .f32⟩
  | .hbm, ⟨8, _⟩ => ⟨S128000, .f32⟩
  | .hbm, ⟨9, _⟩ => ⟨S_, .i32⟩
  | .hbm, ⟨10, _⟩ => ⟨S1, .i32⟩
  | .hbm, ⟨11, _⟩ => ⟨S1, .i1⟩
  | .hbm, ⟨12, _⟩ => ⟨S_, .i32⟩
  | .hbm, ⟨13, _⟩ => ⟨S1, .i32⟩
  | .hbm, ⟨14, _⟩ => ⟨S1, .i32⟩
  | .hbm, ⟨15, _⟩ => ⟨S1, .i32⟩
  | .hbm, ⟨16, _⟩ => ⟨S1x1, .i32⟩
  | .hbm, ⟨17, _⟩ => ⟨S1x1024, .f32⟩
  | .hbm, ⟨18, _⟩ => ⟨S1x1x1024, .f32⟩
  | .hbm, ⟨19, _⟩ => ⟨S1x1024, .f32⟩
  | .hbm, ⟨20, _⟩ => ⟨S1x1024, .f32⟩
  | .hbm, ⟨21, _⟩ => ⟨S1024x3072, .f32⟩
  | .hbm, ⟨22, _⟩ => ⟨S1x3072, .f32⟩
  | .hbm, ⟨23, _⟩ => ⟨S1x3072, .f32⟩
  | .hbm, ⟨24, _⟩ => ⟨S1x3072, .f32⟩
  | .hbm, ⟨25, _⟩ => ⟨S1024x3072, .f32⟩
  | .hbm, ⟨26, _⟩ => ⟨S1x3072, .f32⟩
  | .hbm, ⟨27, _⟩ => ⟨S1x3072, .f32⟩
  | .hbm, ⟨28, _⟩ => ⟨S1x3072, .f32⟩
  | .hbm, ⟨29, _⟩ => ⟨S1x1024, .f32⟩
  | .hbm, ⟨30, _⟩ => ⟨S1x1024, .f32⟩
  | .hbm, ⟨31, _⟩ => ⟨S1x1024, .f32⟩
  | .hbm, ⟨32, _⟩ => ⟨S1x1024, .f32⟩
  | .hbm, ⟨33, _⟩ => ⟨S1x1024, .f32⟩
  | .hbm, ⟨34, _⟩ => ⟨S1x1024, .f32⟩
  | .hbm, ⟨35, _⟩ => ⟨S1x1024, .f32⟩
  | .hbm, ⟨36, _⟩ => ⟨S1x1024, .f32⟩
  | .hbm, ⟨37, _⟩ => ⟨S1x1024, .f32⟩
  | .hbm, ⟨38, _⟩ => ⟨S_, .f32⟩
  | .hbm, ⟨39, _⟩ => ⟨S1x1024, .f32⟩
  | .hbm, ⟨40, _⟩ => ⟨S1x1024, .f32⟩
  | .hbm, ⟨41, _⟩ => ⟨S_, .f32⟩
  | .hbm, ⟨42, _⟩ => ⟨S1x1024, .f32⟩
  | .hbm, ⟨43, _⟩ => ⟨S1x1024, .f32⟩
  | .hbm, ⟨44, _⟩ => ⟨S1x1024, .f32⟩
  | .hbm, ⟨45, _⟩ => ⟨S1x1024, .f32⟩
  | .hbm, ⟨46, _⟩ => ⟨S1x1024, .f32⟩
  | .hbm, ⟨47, _⟩ => ⟨S_, .f32⟩
  | .hbm, ⟨48, _⟩ => ⟨S1x1024, .f32⟩
  | .hbm, ⟨49, _⟩ => ⟨S1x1024, .f32⟩
  | .hbm, ⟨50, _⟩ => ⟨S_, .f32⟩
  | .hbm, ⟨51, _⟩ => ⟨S1x1024, .f32⟩
  | .hbm, ⟨52, _⟩ => ⟨S1x1024, .f32⟩
  | .hbm, ⟨53, _⟩ => ⟨S1x1024, .f32⟩
  | .hbm, ⟨54, _⟩ => ⟨S1x1024, .f32⟩
  | .hbm, ⟨55, _⟩ => ⟨S1x1024, .f32⟩
  | .hbm, ⟨56, _⟩ => ⟨S_, .f32⟩
  | .hbm, ⟨57, _⟩ => ⟨S1x1024, .f32⟩
  | .hbm, ⟨58, _⟩ => ⟨S1x1024, .f32⟩
  | .hbm, ⟨59, _⟩ => ⟨S1x1024, .f32⟩
  | .hbm, ⟨60, _⟩ => ⟨S1x1024, .f32⟩
  | .hbm, ⟨61, _⟩ => ⟨S1x1024, .f32⟩
  | .hbm, ⟨62, _⟩ => ⟨S1024x128000, .f32⟩
  | .hbm, ⟨63, _⟩ => ⟨S1x128000, .f32⟩
  | .hbm, ⟨64, _⟩ => ⟨S1x128000, .f32⟩
  | .hbm, ⟨65, _⟩ => ⟨S1x128000, .f32⟩
  | .hbm, ⟨66, _⟩ => ⟨S_, .f32⟩
  | .hbm, ⟨67, _⟩ => ⟨S1, .f32⟩
  | .hbm, ⟨68, _⟩ => ⟨S_, .f32⟩
  | .hbm, ⟨69, _⟩ => ⟨S1, .f32⟩
  | .hbm, ⟨70, _⟩ => ⟨S1, .f32⟩
  | .hbm, ⟨71, _⟩ => ⟨S1x1, .f32⟩
  | .hbm, ⟨72, _⟩ => ⟨S1x128000, .f32⟩
  | .hbm, ⟨73, _⟩ => ⟨S1x128000, .f32⟩
  | .hbm, ⟨74, _⟩ => ⟨S1x128000, .f32⟩
  | .hbm, ⟨75, _⟩ => ⟨S_, .f32⟩
  | .hbm, ⟨76, _⟩ => ⟨S1, .f32⟩
  | .hbm, ⟨77, _⟩ => ⟨S1x1, .f32⟩
  | .hbm, ⟨78, _⟩ => ⟨S1x1, .f32⟩
  | .hbm, ⟨79, _⟩ => ⟨S1x128000, .f32⟩
  | .hbm, ⟨80, _⟩ => ⟨S1x128000, .f32⟩
  | .hbm, ⟨81, _⟩ => ⟨S1x1x1024, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst : Ref sig .tc := ⟨.hbm, 38, rfl⟩
abbrev main_v27 : Ref sig .tc := ⟨.hbm, 39, rfl⟩
abbrev main_v28 : Ref sig .tc := ⟨.hbm, 40, rfl⟩
abbrev main_cst_1 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_2 : Ref sig .tc := ⟨.hbm, 47, rfl⟩
abbrev main_v34 : Ref sig .tc := ⟨.hbm, 48, rfl⟩
abbrev main_v35 : Ref sig .tc := ⟨.hbm, 49, rfl⟩
abbrev main_cst_3 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_4 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_call0_cst : Ref sig .tc := ⟨.hbm, 66, rfl⟩
abbrev main_call0_v0 : Ref sig .tc := ⟨.hbm, 67, rfl⟩
abbrev main_call0_cst_0 : Ref sig .tc := ⟨.hbm, 68, rfl⟩
abbrev main_call0_v1 : Ref sig .tc := ⟨.hbm, 69, rfl⟩
abbrev main_call0_v2 : Ref sig .tc := ⟨.hbm, 70, rfl⟩
abbrev main_call0_v3 : Ref sig .tc := ⟨.hbm, 71, rfl⟩
abbrev main_call0_v4 : Ref sig .tc := ⟨.hbm, 72, rfl⟩
abbrev main_call0_v5 : Ref sig .tc := ⟨.hbm, 73, rfl⟩
abbrev main_call0_v6 : Ref sig .tc := ⟨.hbm, 74, rfl⟩
abbrev main_call0_cst_1 : Ref sig .tc := ⟨.hbm, 75, rfl⟩
abbrev main_call0_v7 : Ref sig .tc := ⟨.hbm, 76, rfl⟩
abbrev main_call0_v8 : Ref sig .tc := ⟨.hbm, 77, rfl⟩
abbrev main_call0_v9 : Ref sig .tc := ⟨.hbm, 78, rfl⟩
abbrev main_call0_v10 : Ref sig .tc := ⟨.hbm, 79, rfl⟩
abbrev main_v50 : Ref sig .tc := ⟨.hbm, 80, rfl⟩
abbrev main_v51 : Ref sig .tc := ⟨.hbm, 81, rfl⟩

abbrev nD : Nat := 1
abbrev τ : Topo := Topo.v7x

variable {F : FTy → Type} [FloatOps F]

class Facts₀ : Prop where
  bcast_S_S1 : S_.BroadcastsInDim S1 (![] : Fin 0 → Fin S1.rank)
  bcast_S1_S1x1_0 : S1.BroadcastsInDim S1x1 (![0] : Fin 1 → Fin S1x1.rank)
  shapeCasts_S1x1024_S1x1x1024 : S1x1024.ShapeCasts S1x1x1024
  shapeCasts_S1x1x1024_S1x1024 : S1x1x1024.ShapeCasts S1x1024
  transposes_S3072x1024_S1024x3072_1_0 : S3072x1024.Transposes [1, 0] S1024x3072
  bcast_S3072_S1x3072_1 : S3072.BroadcastsInDim S1x3072 (![1] : Fin 1 → Fin S1x3072.rank)
  slices_S1x3072_S1x1024_0_0 : S1x3072.Slices ![0, 0] S1x1024
  slices_S1x3072_S1x1024_0_1024 : S1x3072.Slices ![0, 1024] S1x1024
  slices_S1x3072_S1x1024_0_2048 : S1x3072.Slices ![0, 2048] S1x1024
  bcast_S_S1x1024 : S_.BroadcastsInDim S1x1024 (![] : Fin 0 → Fin S1x1024.rank)
  transposes_S128000x1024_S1024x128000_1_0 : S128000x1024.Transposes [1, 0] S1024x128000
  bcast_S128000_S1x128000_1 : S128000.BroadcastsInDim S1x128000 (![1] : Fin 1 → Fin S1x128000.rank)
  reducesTo_S1x128000_S1_d1 : S1x128000.ReducesTo [1] S1
  h_S_ : 0 < S_.numel
  bcast_S1x1_S1x128000_0_1 : S1x1.BroadcastsInDim S1x128000 (![0, 1] : Fin 2 → Fin S1x128000.rank)
  bcast_S1x1024_S1x1x1024_1_2 : S1x1024.BroadcastsInDim S1x1x1024 (![1, 2] : Fin 2 → Fin S1x1x1024.rank)
  gather_S128000x1024_S1x1_S1x1024_1_0_n_n_0_1_11024_wf : GatherDims.WF S128000x1024 S1x1 S1x1024 [1] [0] [] [0] [] 1 ![1, 1024]
  dot_S1x1024_S1024x3072_S1x3072_1_0_0_1_n_n_wf : DotDims.WF S1x1024 S1024x3072 S1x3072 [1] [0] [0] [1] [] []
  dot_S1x1024_S1024x128000_S1x128000_1_0_0_1_n_n_wf : DotDims.WF S1x1024 S1024x128000 S1x128000 [1] [0] [0] [1] [] []

variable [Facts₀]

def gather_S128000x1024_S1x1_S1x1024_1_0_n_n_0_1_11024 : GatherDims S128000x1024 S1x1 S1x1024 where
  offsetDims := [1]
  collapsedSliceDims := [0]
  operandBatchingDims := []
  startIndicesBatchingDims := []
  startIndexMap := [0]
  indexVectorDim := 1
  sliceSizes := ![1, 1024]
  wf := gather_S128000x1024_S1x1_S1x1024_1_0_n_n_0_1_11024_wf
def dot_S1x1024_S1024x3072_S1x3072_1_0_0_1_n_n : DotDims S1x1024 S1024x3072 S1x3072 where
  lhsContracting := [1]
  rhsContracting := [0]
  lhsNonContracting := [0]
  rhsNonContracting := [1]
  lhsBatch := []
  rhsBatch := []
  wf := dot_S1x1024_S1024x3072_S1x3072_1_0_0_1_n_n_wf
def dot_S1x1024_S1024x128000_S1x128000_1_0_0_1_n_n : DotDims S1x1024 S1024x128000 S1x128000 where
  lhsContracting := [1]
  rhsContracting := [0]
  lhsNonContracting := [0]
  rhsNonContracting := [1]
  lhsBatch := []
  rhsBatch := []
  wf := dot_S1x1024_S1024x128000_S1x128000_1_0_0_1_n_n_wf

class Facts : Prop extends Facts₀ where

variable [Facts]
-- ==== Proof.K.Body0.lean ====
/-
  Region 0 of @main (the GRU cell's pallas_call, one grid point) as the pipeline library's proof data, stated at a
  PARAMETER V: the TensorCore's buffer contents when the region is entered.

  Every window's block is the whole array (one grid point, index maps constant zero).  The body loads the six
  input buffers whole, computes, and stores the one output buffer whole; it also loads the output buffer before the
  store, a value nothing uses.  So after the body each input buffer still holds its block and the output buffer holds
  the stored value, a pure function (the skeleton's payload) of the six input blocks.
-/
import proofs.«180323_j40492951667511_2_alg».proof.Proof.Gen.Kernel.Launch
import proofs.«180323_j40492951667511_2_alg».proof.Proof.Gen.Kernel.Skeleton
import proofs.«180323_j40492951667511_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not, for any proof data
    whose array is the entry contents and whose body leaves the block in place (one statement per window: the block's
    shape is the window's). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses and what it leaves in the output buffer -/

abbrev r0_out : Rect S1x1024 := Rect.unit (s := S1x1024) ![0, 0] S1x1024.size inb_S1x1024_S1x1024_0_0
abbrev r0_a : Rect S1x1024 := Rect.unit (s := S1x1024) ![0, 0] S1x1024.size inb_S1x1024_S1x1024_0_0
abbrev r0_w : Rect S3072x1024 := Rect.unit (s := S3072x1024) ![0, 0] S3072x1024.size inb_S3072x1024_S3072x1024_0_0
abbrev r0_b : Rect S1x3072 := Rect.unit (s := S1x3072) ![0, 0] S1x3072.size inb_S1x3072_S1x3072_0_0

/-- The output buffer after the body, from the six input blocks: its one store as a piece. -/
def out0_6 (x0 x1 : Vec F S1x1024 .f32) (x2 x3 : Vec F S3072x1024 .f32) (x4 x5 : Vec F S1x3072 .f32) : Vec F S1x1024 .f32 :=
  View.canon [⟨r0_out, k0_pay1 (View.ld x0 r0_a) (View.ld x1 r0_a) (View.ld x2 r0_w) (View.ld x3 r0_w) (View.ld x4 r0_b) (View.ld x5 r0_b)⟩]

/-- The one store covers the buffer. -/
theorem cover0_6 (p0 : Vec F S1x1024 .f32) (y : S1x1024.Idx) :
    ∃ pc ∈ ([⟨r0_out, p0⟩] : List (View.Piece (Elt F) S1x1024 .f32)), y ∈ pc.1.set :=
  View.cover_of_tiled [⟨r0_out, p0⟩] S1x1024.size (by rfl) y

/-! ## The body's triple -/

set_option maxHeartbeats 4000000 in
/-- The kernel body on whole staging memrefs, the inputs' at contents x0 … x5 and the output's at anything, runs to the
    continuation holding the inputs' as they were and the output's at out0_6 of the inputs'. -/
theorem sound_kernel0 (c : Dev nD) (E : Set ℕ) (i : grid0.Coords)
    (arg1 : Memref sig .tc .vmem S1x1024 .f32) (harg1 : arg1.IsWhole) (arg2 : Memref sig .tc .vmem S1x1024 .f32) (harg2 : arg2.IsWhole)
    (arg3 : Memref sig .tc .vmem S3072x1024 .f32) (harg3 : arg3.IsWhole) (arg4 : Memref sig .tc .vmem S3072x1024 .f32) (harg4 : arg4.IsWhole)
    (arg5 : Memref sig .tc .vmem S1x3072 .f32) (harg5 : arg5.IsWhole) (arg6 : Memref sig .tc .vmem S1x3072 .f32) (harg6 : arg6.IsWhole)
    (arg7 : Memref sig .tc .vmem S1x1024 .f32) (harg7 : arg7.IsWhole)
    (x0 x1 : Vec F S1x1024 .f32) (x2 x3 : Vec F S3072x1024 .f32) (x4 x5 : Vec F S1x3072 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4 ∗ owns (c : Thread nD τ) arg6 fullShare x5
            ∗ owns (c : Thread nD τ) arg7 fullShare (out0_6 x0 x1 x2 x3 x4 x5)) -∗ K ⟨⟩))
      ⊢ wp frame (wpE (defs₀ (F := F)) Variants.none c none) E
          (cc0__gru_kernel i arg1 harg1 arg2 harg2 arg3 harg3 arg4 harg4 arg5 harg5 arg6 harg6 arg7 harg7) K := by
  simp only [cc0__gru_kernel_eq_skeleton]; unfold cc0__gru_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover0_6 _)

/-! ## The pipeline's proof data -/

/-- The proof data of pipeline 0 on core c: the arrays as the region finds them; after the body at point t each input's
    buffer at its block and the output's at out0_6 of the input blocks; the class invariant (the scoped rest and the
    generator register, untouched); nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => out0_6 (iblk0 V c 0 t) (iblk0 V c 1 t) (iblk0 V c 2 t) (iblk0 V c 3 t) (iblk0 V c 4 t) (iblk0 V c 5 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t
    = out0_6 (iblk0 V c 0 t) (iblk0 V c 1 t) (iblk0 V c 2 t) (iblk0 V c 3 t) (iblk0 V c 4 t) (iblk0 V c 5 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point: the inputs' memrefs hold their blocks, so the body's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _ (iblk0 V c 0 t) (iblk0 V c 1 t) (iblk0 V c 2 t) (iblk0 V c 3 t) (iblk0 V c 4 t) (iblk0 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Body1.lean ====
/-
  Region 1 of @main (the output projection's pallas_call, fifty grid points, one vocabulary tile of 2560 entries
  each) as the pipeline library's proof data, stated at a PARAMETER V: the TensorCore's buffer contents when the
  region is entered.

  At point t the body finds the hidden row whole (its index map is constant: fetched once), tile t of the weight
  matrix (rows 2560·t … 2560·t + 2559) and tile t of the bias row; it loads the three whole, computes, and stores the
  output tile whole; it also loads the output buffer before the store, a value nothing uses.  So after the body each
  input buffer still holds its block and the output buffer holds the stored value, a pure function (the skeleton's
  payload) of the three input blocks at that point.
-/
import proofs.«180323_j40492951667511_2_alg».proof.Proof.Gen.Kernel.Launch
import proofs.«180323_j40492951667511_2_alg».proof.Proof.Gen.Kernel.Skeleton
import proofs.«180323_j40492951667511_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not, for any proof data
    whose array is the entry contents and whose body leaves the block in place (one statement per window: the block's
    shape is the window's). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses and what it leaves in the output buffer -/

abbrev r1_h : Rect S1x1024 := Rect.unit (s := S1x1024) ![0, 0] S1x1024.size inb_S1x1024_S1x1024_0_0
abbrev r1_w : Rect S2560x1024 := Rect.unit (s := S2560x1024) ![0, 0] S2560x1024.size inb_S2560x1024_S2560x1024_0_0
abbrev r1_b : Rect S1x2560 := Rect.unit (s := S1x2560) ![0, 0] S1x2560.size inb_S1x2560_S1x2560_0_0

/-- The output buffer after the body, from the three input blocks: its one store as a piece. -/
def out1_3 (x0 : Vec F S1x1024 .f32) (x1 : Vec F S2560x1024 .f32) (x2 : Vec F S1x2560 .f32) : Vec F S1x2560 .f32 :=
  View.canon [⟨r1_b, k1_pay1 (View.ld x0 r1_h) (View.ld x1 r1_w) (View.ld x2 r1_b)⟩]

/-- The one store covers the buffer. -/
theorem cover1_3 (p0 : Vec F S1x2560 .f32) (y : S1x2560.Idx) :
    ∃ pc ∈ ([⟨r1_b, p0⟩] : List (View.Piece (Elt F) S1x2560 .f32)), y ∈ pc.1.set :=
  View.cover_of_tiled [⟨r1_b, p0⟩] S1x2560.size (by rfl) y

/-! ## The body's triple -/

set_option maxHeartbeats 4000000 in
/-- The kernel body on whole staging memrefs, the inputs' at contents x0, x1, x2 and the output's at anything, runs to the
    continuation holding the inputs' as they were and the output's at out1_3 of the inputs'. -/
theorem sound_kernel1 (c : Dev nD) (E : Set ℕ) (i : grid1.Coords)
    (arg1 : Memref sig .tc .vmem S1x1024 .f32) (harg1 : arg1.IsWhole) (arg2 : Memref sig .tc .vmem S2560x1024 .f32) (harg2 : arg2.IsWhole)
    (arg3 : Memref sig .tc .vmem S1x2560 .f32) (harg3 : arg3.IsWhole) (arg4 : Memref sig .tc .vmem S1x2560 .f32) (harg4 : arg4.IsWhole)
    (x0 : Vec F S1x1024 .f32) (x1 : Vec F S2560x1024 .f32) (x2 : Vec F S1x2560 .f32) (K : PUnit → sProp 𝕄) :
    iprop(owns (c : Thread nD τ) arg1 fullShare x0 ∗ owns (c : Thread nD τ) arg2 fullShare x1
        ∗ owns (c : Thread nD τ) arg3 fullShare x2
        ∗ (∃ d, owns (c : Thread nD τ) arg4 fullShare d)
        ∗ (iprop(owns (c : Thread nD τ) arg1 fullShare x0 ∗ owns (c : Thread nD τ) arg2 fullShare x1
            ∗ owns (c : Thread nD τ) arg3 fullShare x2
            ∗ owns (c : Thread nD τ) arg4 fullShare (out1_3 x0 x1 x2)) -∗ K ⟨⟩))
      ⊢ wp frame (wpE (defs₀ (F := F)) Variants.none c none) E
          (cc1__logits_kernel i arg1 harg1 arg2 harg2 arg3 harg3 arg4 harg4) K := by
  simp only [cc1__logits_kernel_eq_skeleton]; unfold cc1__logits_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The pipeline's proof data -/

/-- The proof data of pipeline 1 on core c: the arrays as the region finds them; after the body at point t each input's
    buffer at its block and the output's at out1_3 of the input blocks; the class invariant; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t
    = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so the body's triple applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.Run.lean ====
/-
  The run of @main from the launch to the return, at any float instance: six segments in order, the host stretch
  before the first kernel region, the GRU region, one reshape, the projection region, the log-softmax stretch and the
  final reshape.  Between two segments every unscoped buffer of the TensorCore is held whole at known contents:

    W0  the launch memory;                W1  after the first host stretch (region 0 is entered here);
    W2  after region 0: its arrays at what the pipeline's write-backs leave, every other buffer as entered;
    W3  after the reshape of the output bias (region 1 is entered here);
    W4  after region 1, in the same way;  W5, W6  after the last two host stretches.

  The run ends with every unscoped buffer at W6, from which both the unchanged arguments and the two results are read.
-/
import proofs.«180323_j40492951667511_2_alg».proof.Proof.K.Body0
import proofs.«180323_j40492951667511_2_alg».proof.Proof.K.Body1
import proofs.«180323_j40492951667511_2_alg».proof.Proof.Gen.Kernel.Regions

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

abbrev W0 : Dev nD → Valuation τ sig (Elt F) := fun c b => m (c, b)
abbrev W1 : Dev nD → Valuation τ sig (Elt F) := fun c => StableHlo.after hostOps0 (W0 m c)
abbrev V1 : (c : Dev nD) → (b : Ref sig .tc) → Buf (Elt F) ((c : Thread nD τ).loc b) := fun c b => W1 m c b
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

abbrev W3 : Dev nD → Valuation τ sig (Elt F) := fun c => StableHlo.after hostOps1 (W2 m c)
abbrev V3 : (c : Dev nD) → (b : Ref sig .tc) → Buf (Elt F) ((c : Thread nD τ).loc b) := fun c b => W3 m c b
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

abbrev W5 : Dev nD → Valuation τ sig (Elt F) := fun c => StableHlo.after hostOps2 (W4 m c)
abbrev W6 : Dev nD → Valuation τ sig (Elt F) := fun c => StableHlo.after hostOps2_1 (W5 m c)

/-! ## The proof data family and the thread state -/

abbrev adm' : (p : Fin 2) → (pcfgs (F := F) p).Adm := fun p => (cfgs p).toPCfg_adm
def pdats : (p : Fin 2) → (c : Dev nD) → Dat τ (Elt F) Unit ℕ (UR sig nD τ) ℕ (cfgs p) c
  | ⟨0, _⟩ => fun c => dat0 (V1 m) c
  | ⟨1, _⟩ => fun c => dat1 (V3 m) c
abbrev 𝒱₀ : Variants := Variants.none
abbrev L : GSem nD τ sig → Finset Unit := fun _ => ∅
abbrev lv : GSem nD τ sig → Unit → ℕ := fun _ _ => 0
/-- What rides beside the buffers through every segment: the core's generator register at some state and its dues, at
    nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W6 m c) ∗ ∃ r, prngReg c r)

/-! ## The regions as segments -/

set_option backward.isDefEq.respectTransparency.types false in
/-- Region 0 over the thread state: entered from every unscoped buffer at W1, left at W2.  Its arrays are split out of
    the unscoped buffers and put back at the exit contents; the generator register goes into the class invariant and
    comes out; nothing is owed; the kernel has no semaphore of its own. -/
def reg0 : Pipeline.RegionSeg (pcfgs (F := F)) adm' (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm' (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm' (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at W3, left at W4, in the same way. -/
def reg1 : Pipeline.RegionSeg (pcfgs (F := F)) adm' (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm' (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm' (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs (c : Dev nD) : List (Pipeline.Seg (pcfgs (F := F)) adm' (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)),
    .host (hseg hostOps2_1 hostOps2_1_sub hostOps2_1_fresh (W5 m)) ]

set_option backward.isDefEq.respectTransparency.types false in
/-- THE RUN: from any memory with zero counters, every weakly fair execution of @main on the TensorCores terminates,
    nothing faulting, and every final state has every unscoped buffer at the last boundary's contents W6. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m c b) := by
  refine Pipeline.θ_run_regions_kit_dev (pcfgs (F := F)) adm' (pdats m) () cellOf_inj emb₁ defs₀ 𝒱₀ L lv m ρ main
    (segs m)
    (fun c Q => by
      rewrite [main_chain c, Pipeline.Seg.run_eq_chain,
        show (segs m c).map Pipeline.Seg.prog = [
          StableHlo.seq hostOps0,
          Prog.lift (.customCall (Pipeline.entry 0) ()),
          StableHlo.seq hostOps1,
          Prog.lift (.customCall (Pipeline.entry 1) ()),
          StableHlo.seq hostOps2,
          StableHlo.seq hostOps2_1 ] from rfl]
      exact .rfl)
    (fun c => by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := fun c => ⟨.rfl, .rfl, .rfl, .rfl, .rfl, .rfl,
      (show (iprop(StableHlo.held (c : Thread nD τ) (Pipeline.ucRefs τ sig) (W6 m c) ∗ R c) : sProp 𝕄)
          ⊢ iprop(Tₙ m c ∗ ∃ W, owes (c : Thread nD τ) (0 : CellTallies nD τ sig Unit) W) from by
        iintro ⟨Hh, Hp, HO⟩
        isplitl [Hh Hp]
        · isplitl [Hh]; · iexact Hh
          iexact Hp
        iexact HO)⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m c b)
    (hfin := fun c s' => by
      iintro ⟨⟨Hh, -⟩, HSI⟩
      unfold StableHlo.held
      imodintro
      iapply (pointsTo_read_all (Pipeline.ucRefs τ sig) (fun b => (((c : Thread nD τ)).1, b)) (W6 m c) s')
      isplitl [Hh] <;> iassumption)
    (hQ := fun s h c => h c)

end Cert.Kernel.Hand

end
-- ==== Proof.K.Frame.lean ====
/-
  The argument arrays end as launched: no host operation writes one and no region changes one (a region reads an
  argument through an input window, whose array ends as entered, or not at all), so the last boundary's contents at an
  argument's buffer walk back through the six segments to the launch memory.
-/
import proofs.«180323_j40492951667511_2_alg».proof.Proof.K.Run

set_option maxRecDepth 16384

noncomputable section

namespace Cert.Kernel.Hand

open Idealize.ShloMosaic Idealize.ShloMosaic.TcCoe
open Idealize.SL Idealize.SL.Sem
open Idealize.ShloMosaic.Pipeline (Dat Cfg Window)
open Cert.Kernel Cert.Kernel.Gen

variable {F : FTy → Type} [FloatOps F]
variable (m : (ℓ : Loc nD τ sig) → Buf (Elt F) ℓ) (ρ : Dev nD → PrngReg)

/-- An input window's array of region 0 leaves the region as it entered. -/
theorem W2_in (c : Dev nD) (w : Fin cfg0.W) (hw : (cfg0.win w).isOut = false) :
    W2 m c (Proc.devRef .tc (Pipeline.arrRef spec0 w)) = W1 m c (Proc.devRef .tc (Pipeline.arrRef spec0 w)) :=
  (W2_arr m c w).trans (((dat0 (V1 m) c).arrAt_in w hw _).trans (A_eq0 (V1 m) c w))
/-- An input window's array of region 1 leaves the region as it entered. -/
theorem W4_in (c : Dev nD) (w : Fin cfg1.W) (hw : (cfg1.win w).isOut = false) :
    W4 m c (Proc.devRef .tc (Pipeline.arrRef spec1 w)) = W3 m c (Proc.devRef .tc (Pipeline.arrRef spec1 w)) :=
  (W4_arr m c w).trans (((dat1 (V3 m) c).arrAt_in w hw _).trans (A_eq1 (V3 m) c w))

theorem W6_main_arg0 (c : Dev nD) : W6 m c (Proc.devRef .tc main_arg0) = m ((c : Thread nD τ).loc main_arg0) :=
  (StableHlo.after_of_writes_sub hostOps2_1 _ hostOps2_1_writes (by decide)).trans <|
  (StableHlo.after_of_writes_sub hostOps2 _ hostOps2_writes (by decide)).trans <|
  (W4_of_ne m c main_arg0 (by decide)).trans <|
  (StableHlo.after_of_writes_sub hostOps1 _ hostOps1_writes (by decide)).trans <|
  (W2_of_ne m c main_arg0 (by decide)).trans <|
  (StableHlo.after_of_writes_sub hostOps0 _ hostOps0_writes (by decide)).trans rfl
theorem W6_main_arg1 (c : Dev nD) : W6 m c (Proc.devRef .tc main_arg1) = m ((c : Thread nD τ).loc main_arg1) :=
  (StableHlo.after_of_writes_sub hostOps2_1 _ hostOps2_1_writes (by decide)).trans <|
  (StableHlo.after_of_writes_sub hostOps2 _ hostOps2_writes (by decide)).trans <|
  (W4_of_ne m c main_arg1 (by decide)).trans <|
  (StableHlo.after_of_writes_sub hostOps1 _ hostOps1_writes (by decide)).trans <|
  (W2_of_ne m c main_arg1 (by decide)).trans <|
  (StableHlo.after_of_writes_sub hostOps0 _ hostOps0_writes (by decide)).trans rfl
theorem W6_main_arg2 (c : Dev nD) : W6 m c (Proc.devRef .tc main_arg2) = m ((c : Thread nD τ).loc main_arg2) :=
  (StableHlo.after_of_writes_sub hostOps2_1 _ hostOps2_1_writes (by decide)).trans <|
  (StableHlo.after_of_writes_sub hostOps2 _ hostOps2_writes (by decide)).trans <|
  (W4_of_ne m c main_arg2 (by decide)).trans <|
  (StableHlo.after_of_writes_sub hostOps1 _ hostOps1_writes (by decide)).trans <|
  (W2_of_ne m c main_arg2 (by decide)).trans <|
  (StableHlo.after_of_writes_sub hostOps0 _ hostOps0_writes (by decide)).trans rfl
theorem W6_main_arg3 (c : Dev nD) : W6 m c (Proc.devRef .tc main_arg3) = m ((c : Thread nD τ).loc main_arg3) :=
  (StableHlo.after_of_writes_sub hostOps2_1 _ hostOps2_1_writes (by decide)).trans <|
  (StableHlo.after_of_writes_sub hostOps2 _ hostOps2_writes (by decide)).trans <|
  (W4_of_ne m c main_arg3 (by decide)).trans <|
  (StableHlo.after_of_writes_sub hostOps1 _ hostOps1_writes (by decide)).trans <|
  (show W2 m c (Proc.devRef .tc main_arg3) = W1 m c (Proc.devRef .tc main_arg3) from W2_in m c 2 rfl).trans <|
  (StableHlo.after_of_writes_sub hostOps0 _ hostOps0_writes (by decide)).trans rfl
theorem W6_main_arg4 (c : Dev nD) : W6 m c (Proc.devRef .tc main_arg4) = m ((c : Thread nD τ).loc main_arg4) :=
  (StableHlo.after_of_writes_sub hostOps2_1 _ hostOps2_1_writes (by decide)).trans <|
  (StableHlo.after_of_writes_sub hostOps2 _ hostOps2_writes (by decide)).trans <|
  (W4_of_ne m c main_arg4 (by decide)).trans <|
  (StableHlo.after_of_writes_sub hostOps1 _ hostOps1_writes (by decide)).trans <|
  (show W2 m c (Proc.devRef .tc main_arg4) = W1 m c (Proc.devRef .tc main_arg4) from W2_in m c 3 rfl).trans <|
  (StableHlo.after_of_writes_sub hostOps0 _ hostOps0_writes (by decide)).trans rfl
theorem W6_main_arg5 (c : Dev nD) : W6 m c (Proc.devRef .tc main_arg5) = m ((c : Thread nD τ).loc main_arg5) :=
  (StableHlo.after_of_writes_sub hostOps2_1 _ hostOps2_1_writes (by decide)).trans <|
  (StableHlo.after_of_writes_sub hostOps2 _ hostOps2_writes (by decide)).trans <|
  (W4_of_ne m c main_arg5 (by decide)).trans <|
  (StableHlo.after_of_writes_sub hostOps1 _ hostOps1_writes (by decide)).trans <|
  (W2_of_ne m c main_arg5 (by decide)).trans <|
  (StableHlo.after_of_writes_sub hostOps0 _ hostOps0_writes (by decide)).trans rfl
theorem W6_main_arg6 (c : Dev nD) : W6 m c (Proc.devRef .tc main_arg6) = m ((c : Thread nD τ).loc main_arg6) :=
  (StableHlo.after_of_writes_sub hostOps2_1 _ hostOps2_1_writes (by decide)).trans <|
  (StableHlo.after_of_writes_sub hostOps2 _ hostOps2_writes (by decide)).trans <|
  (W4_of_ne m c main_arg6 (by decide)).trans <|
  (StableHlo.after_of_writes_sub hostOps1 _ hostOps1_writes (by decide)).trans <|
  (W2_of_ne m c main_arg6 (by decide)).trans <|
  (StableHlo.after_of_writes_sub hostOps0 _ hostOps0_writes (by decide)).trans rfl
theorem W6_main_arg7 (c : Dev nD) : W6 m c (Proc.devRef .tc main_arg7) = m ((c : Thread nD τ).loc main_arg7) :=
  (StableHlo.after_of_writes_sub hostOps2_1 _ hostOps2_1_writes (by decide)).trans <|
  (StableHlo.after_of_writes_sub hostOps2 _ hostOps2_writes (by decide)).trans <|
  (show W4 m c (Proc.devRef .tc main_arg7) = W3 m c (Proc.devRef .tc main_arg7) from W4_in m c 1 rfl).trans <|
  (StableHlo.after_of_writes_sub hostOps1 _ hostOps1_writes (by decide)).trans <|
  (W2_of_ne m c main_arg7 (by decide)).trans <|
  (StableHlo.after_of_writes_sub hostOps0 _ hostOps0_writes (by decide)).trans rfl
theorem W6_main_arg8 (c : Dev nD) : W6 m c (Proc.devRef .tc main_arg8) = m ((c : Thread nD τ).loc main_arg8) :=
  (StableHlo.after_of_writes_sub hostOps2_1 _ hostOps2_1_writes (by decide)).trans <|
  (StableHlo.after_of_writes_sub hostOps2 _ hostOps2_writes (by decide)).trans <|
  (W4_of_ne m c main_arg8 (by decide)).trans <|
  (StableHlo.after_of_writes_sub hostOps1 _ hostOps1_writes (by decide)).trans <|
  (W2_of_ne m c main_arg8 (by decide)).trans <|
  (StableHlo.after_of_writes_sub hostOps0 _ hostOps0_writes (by decide)).trans rfl

/-- THE FRAME at any float instance: every weakly fair execution of @main terminates, nothing faulting, with the argument
    arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨
      (h c _ (mem_uc main_arg0 (by decide))).trans (W6_main_arg0 m c),
      (h c _ (mem_uc main_arg1 (by decide))).trans (W6_main_arg1 m c),
      (h c _ (mem_uc main_arg2 (by decide))).trans (W6_main_arg2 m c),
      (h c _ (mem_uc main_arg3 (by decide))).trans (W6_main_arg3 m c),
      (h c _ (mem_uc main_arg4 (by decide))).trans (W6_main_arg4 m c),
      (h c _ (mem_uc main_arg5 (by decide))).trans (W6_main_arg5 m c),
      (h c _ (mem_uc main_arg6 (by decide))).trans (W6_main_arg6 m c),
      (h c _ (mem_uc main_arg7 (by decide))).trans (W6_main_arg7 m c),
      (h c _ (mem_uc main_arg8 (by decide))).trans (W6_main_arg8 m c)⟩) (run_all m ρ)

end Cert.Kernel.Hand

end
-- ==== Proof.KI.Body0.lean ====
/-
  Region 0 of @main (the GRU cell's pallas_call, one grid point) as the pipeline library's proof data, stated at a
  PARAMETER V: the TensorCore's buffer contents when the region is entered.

  Every window's block is the whole array (one grid point, index maps constant zero).  The body loads the six
  input buffers whole, computes, and stores the one output buffer whole; it also loads the output buffer before the
  store, a value nothing uses.  So after the body each input buffer still holds its block and the output buffer holds
  the stored value, a pure function (the skeleton's payload) of the six input blocks.
-/
import proofs.«180323_j40492951667511_2_alg».proof.Proof.Gen.KernelIdeal.Launch
import proofs.«180323_j40492951667511_2_alg».proof.Proof.Gen.KernelIdeal.Skeleton
import proofs.«180323_j40492951667511_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not, for any proof data
    whose array is the entry contents and whose body leaves the block in place (one statement per window: the block's
    shape is the window's). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses and what it leaves in the output buffer -/

abbrev r0_out : Rect S1x1024 := Rect.unit (s := S1x1024) ![0, 0] S1x1024.size inb_S1x1024_S1x1024_0_0
abbrev r0_a : Rect S1x1024 := Rect.unit (s := S1x1024) ![0, 0] S1x1024.size inb_S1x1024_S1x1024_0_0
abbrev r0_w : Rect S3072x1024 := Rect.unit (s := S3072x1024) ![0, 0] S3072x1024.size inb_S3072x1024_S3072x1024_0_0
abbrev r0_b : Rect S1x3072 := Rect.unit (s := S1x3072) ![0, 0] S1x3072.size inb_S1x3072_S1x3072_0_0

/-- The output buffer after the body, from the six input blocks: its one store as a piece. -/
def out0_6 (x0 x1 : Vec F S1x1024 .f32) (x2 x3 : Vec F S3072x1024 .f32) (x4 x5 : Vec F S1x3072 .f32) : Vec F S1x1024 .f32 :=
  View.canon [⟨r0_out, k0_pay1 (View.ld x0 r0_a) (View.ld x1 r0_a) (View.ld x2 r0_w) (View.ld x3 r0_w) (View.ld x4 r0_b) (View.ld x5 r0_b)⟩]

/-- The one store covers the buffer. -/
theorem cover0_6 (p0 : Vec F S1x1024 .f32) (y : S1x1024.Idx) :
    ∃ pc ∈ ([⟨r0_out, p0⟩] : List (View.Piece (Elt F) S1x1024 .f32)), y ∈ pc.1.set :=
  View.cover_of_tiled [⟨r0_out, p0⟩] S1x1024.size (by rfl) y

/-! ## The body's triple -/

set_option maxHeartbeats 4000000 in
/-- The kernel body on whole staging memrefs, the inputs' at contents x0 … x5 and the output's at anything, runs to the
    continuation holding the inputs' as they were and the output's at out0_6 of the inputs'. -/
theorem sound_kernel0 (c : Dev nD) (E : Set ℕ) (i : grid0.Coords)
    (arg1 : Memref sig .tc .vmem S1x1024 .f32) (harg1 : arg1.IsWhole) (arg2 : Memref sig .tc .vmem S1x1024 .f32) (harg2 : arg2.IsWhole)
    (arg3 : Memref sig .tc .vmem S3072x1024 .f32) (harg3 : arg3.IsWhole) (arg4 : Memref sig .tc .vmem S3072x1024 .f32) (harg4 : arg4.IsWhole)
    (arg5 : Memref sig .tc .vmem S1x3072 .f32) (harg5 : arg5.IsWhole) (arg6 : Memref sig .tc .vmem S1x3072 .f32) (harg6 : arg6.IsWhole)
    (arg7 : Memref sig .tc .vmem S1x1024 .f32) (harg7 : arg7.IsWhole)
    (x0 x1 : Vec F S1x1024 .f32) (x2 x3 : Vec F S3072x1024 .f32) (x4 x5 : Vec F S1x3072 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4 ∗ owns (c : Thread nD τ) arg6 fullShare x5
            ∗ owns (c : Thread nD τ) arg7 fullShare (out0_6 x0 x1 x2 x3 x4 x5)) -∗ K ⟨⟩))
      ⊢ wp frame (wpE (defs₀ (F := F)) Variants.none c none) E
          (cc0__gru_kernel i arg1 harg1 arg2 harg2 arg3 harg3 arg4 harg4 arg5 harg5 arg6 harg6 arg7 harg7) K := by
  simp only [cc0__gru_kernel_eq_skeleton]; unfold cc0__gru_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover0_6 _)

/-! ## The pipeline's proof data -/

/-- The proof data of pipeline 0 on core c: the arrays as the region finds them; after the body at point t each input's
    buffer at its block and the output's at out0_6 of the input blocks; the class invariant (the scoped rest and the
    generator register, untouched); nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => out0_6 (iblk0 V c 0 t) (iblk0 V c 1 t) (iblk0 V c 2 t) (iblk0 V c 3 t) (iblk0 V c 4 t) (iblk0 V c 5 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t
    = out0_6 (iblk0 V c 0 t) (iblk0 V c 1 t) (iblk0 V c 2 t) (iblk0 V c 3 t) (iblk0 V c 4 t) (iblk0 V c 5 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point: the inputs' memrefs hold their blocks, so the body's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _ (iblk0 V c 0 t) (iblk0 V c 1 t) (iblk0 V c 2 t) (iblk0 V c 3 t) (iblk0 V c 4 t) (iblk0 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Body1.lean ====
/-
  Region 1 of @main (the output projection's pallas_call, fifty grid points, one vocabulary tile of 2560 entries
  each) as the pipeline library's proof data, stated at a PARAMETER V: the TensorCore's buffer contents when the
  region is entered.

  At point t the body finds the hidden row whole (its index map is constant: fetched once), tile t of the weight
  matrix (rows 2560·t … 2560·t + 2559) and tile t of the bias row; it loads the three whole, computes, and stores the
  output tile whole; it also loads the output buffer before the store, a value nothing uses.  So after the body each
  input buffer still holds its block and the output buffer holds the stored value, a pure function (the skeleton's
  payload) of the three input blocks at that point.
-/
import proofs.«180323_j40492951667511_2_alg».proof.Proof.Gen.KernelIdeal.Launch
import proofs.«180323_j40492951667511_2_alg».proof.Proof.Gen.KernelIdeal.Skeleton
import proofs.«180323_j40492951667511_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not, for any proof data
    whose array is the entry contents and whose body leaves the block in place (one statement per window: the block's
    shape is the window's). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses and what it leaves in the output buffer -/

abbrev r1_h : Rect S1x1024 := Rect.unit (s := S1x1024) ![0, 0] S1x1024.size inb_S1x1024_S1x1024_0_0
abbrev r1_w : Rect S2560x1024 := Rect.unit (s := S2560x1024) ![0, 0] S2560x1024.size inb_S2560x1024_S2560x1024_0_0
abbrev r1_b : Rect S1x2560 := Rect.unit (s := S1x2560) ![0, 0] S1x2560.size inb_S1x2560_S1x2560_0_0

/-- The output buffer after the body, from the three input blocks: its one store as a piece. -/
def out1_3 (x0 : Vec F S1x1024 .f32) (x1 : Vec F S2560x1024 .f32) (x2 : Vec F S1x2560 .f32) : Vec F S1x2560 .f32 :=
  View.canon [⟨r1_b, k1_pay1 (View.ld x0 r1_h) (View.ld x1 r1_w) (View.ld x2 r1_b)⟩]

/-- The one store covers the buffer. -/
theorem cover1_3 (p0 : Vec F S1x2560 .f32) (y : S1x2560.Idx) :
    ∃ pc ∈ ([⟨r1_b, p0⟩] : List (View.Piece (Elt F) S1x2560 .f32)), y ∈ pc.1.set :=
  View.cover_of_tiled [⟨r1_b, p0⟩] S1x2560.size (by rfl) y

/-! ## The body's triple -/

set_option maxHeartbeats 4000000 in
/-- The kernel body on whole staging memrefs, the inputs' at contents x0, x1, x2 and the output's at anything, runs to the
    continuation holding the inputs' as they were and the output's at out1_3 of the inputs'. -/
theorem sound_kernel1 (c : Dev nD) (E : Set ℕ) (i : grid1.Coords)
    (arg1 : Memref sig .tc .vmem S1x1024 .f32) (harg1 : arg1.IsWhole) (arg2 : Memref sig .tc .vmem S2560x1024 .f32) (harg2 : arg2.IsWhole)
    (arg3 : Memref sig .tc .vmem S1x2560 .f32) (harg3 : arg3.IsWhole) (arg4 : Memref sig .tc .vmem S1x2560 .f32) (harg4 : arg4.IsWhole)
    (x0 : Vec F S1x1024 .f32) (x1 : Vec F S2560x1024 .f32) (x2 : Vec F S1x2560 .f32) (K : PUnit → sProp 𝕄) :
    iprop(owns (c : Thread nD τ) arg1 fullShare x0 ∗ owns (c : Thread nD τ) arg2 fullShare x1
        ∗ owns (c : Thread nD τ) arg3 fullShare x2
        ∗ (∃ d, owns (c : Thread nD τ) arg4 fullShare d)
        ∗ (iprop(owns (c : Thread nD τ) arg1 fullShare x0 ∗ owns (c : Thread nD τ) arg2 fullShare x1
            ∗ owns (c : Thread nD τ) arg3 fullShare x2
            ∗ owns (c : Thread nD τ) arg4 fullShare (out1_3 x0 x1 x2)) -∗ K ⟨⟩))
      ⊢ wp frame (wpE (defs₀ (F := F)) Variants.none c none) E
          (cc1__logits_kernel i arg1 harg1 arg2 harg2 arg3 harg3 arg4 harg4) K := by
  simp only [cc1__logits_kernel_eq_skeleton]; unfold cc1__logits_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The pipeline's proof data -/

/-- The proof data of pipeline 1 on core c: the arrays as the region finds them; after the body at point t each input's
    buffer at its block and the output's at out1_3 of the input blocks; the class invariant; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t
    = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so the body's triple applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Run.lean ====
/-
  The run of @main from the launch to the return, at any float instance: six segments in order, the host stretch
  before the first kernel region, the GRU region, one reshape, the projection region, the log-softmax stretch and the
  final reshape.  Between two segments every unscoped buffer of the TensorCore is held whole at known contents:

    W0  the launch memory;                W1  after the first host stretch (region 0 is entered here);
    W2  after region 0: its arrays at what the pipeline's write-backs leave, every other buffer as entered;
    W3  after the reshape of the output bias (region 1 is entered here);
    W4  after region 1, in the same way;  W5, W6  after the last two host stretches.

  The run ends with every unscoped buffer at W6, from which both the unchanged arguments and the two results are read.
-/
import proofs.«180323_j40492951667511_2_alg».proof.Proof.KI.Body0
import proofs.«180323_j40492951667511_2_alg».proof.Proof.KI.Body1
import proofs.«180323_j40492951667511_2_alg».proof.Proof.Gen.KernelIdeal.Regions

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

abbrev W0 : Dev nD → Valuation τ sig (Elt F) := fun c b => m (c, b)
abbrev W1 : Dev nD → Valuation τ sig (Elt F) := fun c => StableHlo.after hostOps0 (W0 m c)
abbrev V1 : (c : Dev nD) → (b : Ref sig .tc) → Buf (Elt F) ((c : Thread nD τ).loc b) := fun c b => W1 m c b
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

abbrev W3 : Dev nD → Valuation τ sig (Elt F) := fun c => StableHlo.after hostOps1 (W2 m c)
abbrev V3 : (c : Dev nD) → (b : Ref sig .tc) → Buf (Elt F) ((c : Thread nD τ).loc b) := fun c b => W3 m c b
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

abbrev W5 : Dev nD → Valuation τ sig (Elt F) := fun c => StableHlo.after hostOps2 (W4 m c)
abbrev W6 : Dev nD → Valuation τ sig (Elt F) := fun c => StableHlo.after hostOps2_1 (W5 m c)

/-! ## The proof data family and the thread state -/

abbrev adm' : (p : Fin 2) → (pcfgs (F := F) p).Adm := fun p => (cfgs p).toPCfg_adm
def pdats : (p : Fin 2) → (c : Dev nD) → Dat τ (Elt F) Unit ℕ (UR sig nD τ) ℕ (cfgs p) c
  | ⟨0, _⟩ => fun c => dat0 (V1 m) c
  | ⟨1, _⟩ => fun c => dat1 (V3 m) c
abbrev 𝒱₀ : Variants := Variants.none
abbrev L : GSem nD τ sig → Finset Unit := fun _ => ∅
abbrev lv : GSem nD τ sig → Unit → ℕ := fun _ _ => 0
/-- What rides beside the buffers through every segment: the core's generator register at some state and its dues, at
    nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W6 m c) ∗ ∃ r, prngReg c r)

/-! ## The regions as segments -/

set_option backward.isDefEq.respectTransparency.types false in
/-- Region 0 over the thread state: entered from every unscoped buffer at W1, left at W2.  Its arrays are split out of
    the unscoped buffers and put back at the exit contents; the generator register goes into the class invariant and
    comes out; nothing is owed; the kernel has no semaphore of its own. -/
def reg0 : Pipeline.RegionSeg (pcfgs (F := F)) adm' (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm' (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm' (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at W3, left at W4, in the same way. -/
def reg1 : Pipeline.RegionSeg (pcfgs (F := F)) adm' (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm' (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm' (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs (c : Dev nD) : List (Pipeline.Seg (pcfgs (F := F)) adm' (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)),
    .host (hseg hostOps2_1 hostOps2_1_sub hostOps2_1_fresh (W5 m)) ]

set_option backward.isDefEq.respectTransparency.types false in
/-- THE RUN: from any memory with zero counters, every weakly fair execution of @main on the TensorCores terminates,
    nothing faulting, and every final state has every unscoped buffer at the last boundary's contents W6. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m c b) := by
  refine Pipeline.θ_run_regions_kit_dev (pcfgs (F := F)) adm' (pdats m) () cellOf_inj emb₁ defs₀ 𝒱₀ L lv m ρ main
    (segs m)
    (fun c Q => by
      rewrite [main_chain c, Pipeline.Seg.run_eq_chain,
        show (segs m c).map Pipeline.Seg.prog = [
          StableHlo.seq hostOps0,
          Prog.lift (.customCall (Pipeline.entry 0) ()),
          StableHlo.seq hostOps1,
          Prog.lift (.customCall (Pipeline.entry 1) ()),
          StableHlo.seq hostOps2,
          StableHlo.seq hostOps2_1 ] from rfl]
      exact .rfl)
    (fun c => by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := fun c => ⟨.rfl, .rfl, .rfl, .rfl, .rfl, .rfl,
      (show (iprop(StableHlo.held (c : Thread nD τ) (Pipeline.ucRefs τ sig) (W6 m c) ∗ R c) : sProp 𝕄)
          ⊢ iprop(Tₙ m c ∗ ∃ W, owes (c : Thread nD τ) (0 : CellTallies nD τ sig Unit) W) from by
        iintro ⟨Hh, Hp, HO⟩
        isplitl [Hh Hp]
        · isplitl [Hh]; · iexact Hh
          iexact Hp
        iexact HO)⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m c b)
    (hfin := fun c s' => by
      iintro ⟨⟨Hh, -⟩, HSI⟩
      unfold StableHlo.held
      imodintro
      iapply (pointsTo_read_all (Pipeline.ucRefs τ sig) (fun b => (((c : Thread nD τ)).1, b)) (W6 m c) s')
      isplitl [Hh] <;> iassumption)
    (hQ := fun s h c => h c)

end Cert.KernelIdeal.Hand

end
-- ==== Proof.KI.Frame.lean ====
/-
  The argument arrays end as launched: no host operation writes one and no region changes one (a region reads an
  argument through an input window, whose array ends as entered, or not at all), so the last boundary's contents at an
  argument's buffer walk back through the six segments to the launch memory.
-/
import proofs.«180323_j40492951667511_2_alg».proof.Proof.KI.Run

set_option maxRecDepth 16384

noncomputable section

namespace Cert.KernelIdeal.Hand

open Idealize.ShloMosaic Idealize.ShloMosaic.TcCoe
open Idealize.SL Idealize.SL.Sem
open Idealize.ShloMosaic.Pipeline (Dat Cfg Window)
open Cert.KernelIdeal Cert.KernelIdeal.Gen

variable {F : FTy → Type} [FloatOps F]
variable (m : (ℓ : Loc nD τ sig) → Buf (Elt F) ℓ) (ρ : Dev nD → PrngReg)

/-- An input window's array of region 0 leaves the region as it entered. -/
theorem W2_in (c : Dev nD) (w : Fin cfg0.W) (hw : (cfg0.win w).isOut = false) :
    W2 m c (Proc.devRef .tc (Pipeline.arrRef spec0 w)) = W1 m c (Proc.devRef .tc (Pipeline.arrRef spec0 w)) :=
  (W2_arr m c w).trans (((dat0 (V1 m) c).arrAt_in w hw _).trans (A_eq0 (V1 m) c w))
/-- An input window's array of region 1 leaves the region as it entered. -/
theorem W4_in (c : Dev nD) (w : Fin cfg1.W) (hw : (cfg1.win w).isOut = false) :
    W4 m c (Proc.devRef .tc (Pipeline.arrRef spec1 w)) = W3 m c (Proc.devRef .tc (Pipeline.arrRef spec1 w)) :=
  (W4_arr m c w).trans (((dat1 (V3 m) c).arrAt_in w hw _).trans (A_eq1 (V3 m) c w))

theorem W6_main_arg0 (c : Dev nD) : W6 m c (Proc.devRef .tc main_arg0) = m ((c : Thread nD τ).loc main_arg0) :=
  (StableHlo.after_of_writes_sub hostOps2_1 _ hostOps2_1_writes (by decide)).trans <|
  (StableHlo.after_of_writes_sub hostOps2 _ hostOps2_writes (by decide)).trans <|
  (W4_of_ne m c main_arg0 (by decide)).trans <|
  (StableHlo.after_of_writes_sub hostOps1 _ hostOps1_writes (by decide)).trans <|
  (W2_of_ne m c main_arg0 (by decide)).trans <|
  (StableHlo.after_of_writes_sub hostOps0 _ hostOps0_writes (by decide)).trans rfl
theorem W6_main_arg1 (c : Dev nD) : W6 m c (Proc.devRef .tc main_arg1) = m ((c : Thread nD τ).loc main_arg1) :=
  (StableHlo.after_of_writes_sub hostOps2_1 _ hostOps2_1_writes (by decide)).trans <|
  (StableHlo.after_of_writes_sub hostOps2 _ hostOps2_writes (by decide)).trans <|
  (W4_of_ne m c main_arg1 (by decide)).trans <|
  (StableHlo.after_of_writes_sub hostOps1 _ hostOps1_writes (by decide)).trans <|
  (W2_of_ne m c main_arg1 (by decide)).trans <|
  (StableHlo.after_of_writes_sub hostOps0 _ hostOps0_writes (by decide)).trans rfl
theorem W6_main_arg2 (c : Dev nD) : W6 m c (Proc.devRef .tc main_arg2) = m ((c : Thread nD τ).loc main_arg2) :=
  (StableHlo.after_of_writes_sub hostOps2_1 _ hostOps2_1_writes (by decide)).trans <|
  (StableHlo.after_of_writes_sub hostOps2 _ hostOps2_writes (by decide)).trans <|
  (W4_of_ne m c main_arg2 (by decide)).trans <|
  (StableHlo.after_of_writes_sub hostOps1 _ hostOps1_writes (by decide)).trans <|
  (W2_of_ne m c main_arg2 (by decide)).trans <|
  (StableHlo.after_of_writes_sub hostOps0 _ hostOps0_writes (by decide)).trans rfl
theorem W6_main_arg3 (c : Dev nD) : W6 m c (Proc.devRef .tc main_arg3) = m ((c : Thread nD τ).loc main_arg3) :=
  (StableHlo.after_of_writes_sub hostOps2_1 _ hostOps2_1_writes (by decide)).trans <|
  (StableHlo.after_of_writes_sub hostOps2 _ hostOps2_writes (by decide)).trans <|
  (W4_of_ne m c main_arg3 (by decide)).trans <|
  (StableHlo.after_of_writes_sub hostOps1 _ hostOps1_writes (by decide)).trans <|
  (show W2 m c (Proc.devRef .tc main_arg3) = W1 m c (Proc.devRef .tc main_arg3) from W2_in m c 2 rfl).trans <|
  (StableHlo.after_of_writes_sub hostOps0 _ hostOps0_writes (by decide)).trans rfl
theorem W6_main_arg4 (c : Dev nD) : W6 m c (Proc.devRef .tc main_arg4) = m ((c : Thread nD τ).loc main_arg4) :=
  (StableHlo.after_of_writes_sub hostOps2_1 _ hostOps2_1_writes (by decide)).trans <|
  (StableHlo.after_of_writes_sub hostOps2 _ hostOps2_writes (by decide)).trans <|
  (W4_of_ne m c main_arg4 (by decide)).trans <|
  (StableHlo.after_of_writes_sub hostOps1 _ hostOps1_writes (by decide)).trans <|
  (show W2 m c (Proc.devRef .tc main_arg4) = W1 m c (Proc.devRef .tc main_arg4) from W2_in m c 3 rfl).trans <|
  (StableHlo.after_of_writes_sub hostOps0 _ hostOps0_writes (by decide)).trans rfl
theorem W6_main_arg5 (c : Dev nD) : W6 m c (Proc.devRef .tc main_arg5) = m ((c : Thread nD τ).loc main_arg5) :=
  (StableHlo.after_of_writes_sub hostOps2_1 _ hostOps2_1_writes (by decide)).trans <|
  (StableHlo.after_of_writes_sub hostOps2 _ hostOps2_writes (by decide)).trans <|
  (W4_of_ne m c main_arg5 (by decide)).trans <|
  (StableHlo.after_of_writes_sub hostOps1 _ hostOps1_writes (by decide)).trans <|
  (W2_of_ne m c main_arg5 (by decide)).trans <|
  (StableHlo.after_of_writes_sub hostOps0 _ hostOps0_writes (by decide)).trans rfl
theorem W6_main_arg6 (c : Dev nD) : W6 m c (Proc.devRef .tc main_arg6) = m ((c : Thread nD τ).loc main_arg6) :=
  (StableHlo.after_of_writes_sub hostOps2_1 _ hostOps2_1_writes (by decide)).trans <|
  (StableHlo.after_of_writes_sub hostOps2 _ hostOps2_writes (by decide)).trans <|
  (W4_of_ne m c main_arg6 (by decide)).trans <|
  (StableHlo.after_of_writes_sub hostOps1 _ hostOps1_writes (by decide)).trans <|
  (W2_of_ne m c main_arg6 (by decide)).trans <|
  (StableHlo.after_of_writes_sub hostOps0 _ hostOps0_writes (by decide)).trans rfl
theorem W6_main_arg7 (c : Dev nD) : W6 m c (Proc.devRef .tc main_arg7) = m ((c : Thread nD τ).loc main_arg7) :=
  (StableHlo.after_of_writes_sub hostOps2_1 _ hostOps2_1_writes (by decide)).trans <|
  (StableHlo.after_of_writes_sub hostOps2 _ hostOps2_writes (by decide)).trans <|
  (show W4 m c (Proc.devRef .tc main_arg7) = W3 m c (Proc.devRef .tc main_arg7) from W4_in m c 1 rfl).trans <|
  (StableHlo.after_of_writes_sub hostOps1 _ hostOps1_writes (by decide)).trans <|
  (W2_of_ne m c main_arg7 (by decide)).trans <|
  (StableHlo.after_of_writes_sub hostOps0 _ hostOps0_writes (by decide)).trans rfl
theorem W6_main_arg8 (c : Dev nD) : W6 m c (Proc.devRef .tc main_arg8) = m ((c : Thread nD τ).loc main_arg8) :=
  (StableHlo.after_of_writes_sub hostOps2_1 _ hostOps2_1_writes (by decide)).trans <|
  (StableHlo.after_of_writes_sub hostOps2 _ hostOps2_writes (by decide)).trans <|
  (W4_of_ne m c main_arg8 (by decide)).trans <|
  (StableHlo.after_of_writes_sub hostOps1 _ hostOps1_writes (by decide)).trans <|
  (W2_of_ne m c main_arg8 (by decide)).trans <|
  (StableHlo.after_of_writes_sub hostOps0 _ hostOps0_writes (by decide)).trans rfl

/-- THE FRAME at any float instance: every weakly fair execution of @main terminates, nothing faulting, with the argument
    arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨
      (h c _ (mem_uc main_arg0 (by decide))).trans (W6_main_arg0 m c),
      (h c _ (mem_uc main_arg1 (by decide))).trans (W6_main_arg1 m c),
      (h c _ (mem_uc main_arg2 (by decide))).trans (W6_main_arg2 m c),
      (h c _ (mem_uc main_arg3 (by decide))).trans (W6_main_arg3 m c),
      (h c _ (mem_uc main_arg4 (by decide))).trans (W6_main_arg4 m c),
      (h c _ (mem_uc main_arg5 (by decide))).trans (W6_main_arg5 m c),
      (h c _ (mem_uc main_arg6 (by decide))).trans (W6_main_arg6 m c),
      (h c _ (mem_uc main_arg7 (by decide))).trans (W6_main_arg7 m c),
      (h c _ (mem_uc main_arg8 (by decide))).trans (W6_main_arg8 m c)⟩) (run_all m ρ)

end Cert.KernelIdeal.Hand

end
-- ==== Proof.Spec.lean ====
/-
  The specification both programs are read against, index by index, on the extended reals.

  One decoder step.  From a token word t, the row of the embedding table that is read is row (rowOf t):
  a negative word counts from the end (t + 128000), and the start index is then clamped into the table
  (0 … 127999), as both a dynamic slice and a gather of one row do.  With x that row and h the
  previous hidden row, the two gate pre-activations are the affine maps x · Wᵀ + b with the 3072 output
  columns in the order reset | update | candidate (1024 columns each); the new hidden row is
  (1 − z) · n + z · h with r = σ(i_r + h_r), z = σ(i_z + h_z), n = tanh(i_n + r · h_n); and the
  logit of vocabulary entry v is h' · W_out[v, :] + b_out[v].  Every contraction is the plain sum
  over the 1024 hidden coordinates.
-/
import Idealize.ShloMosaic.PureOps.Ideal
import Idealize.ShloMosaic.Lib.ValueIdx

noncomputable section

open scoped BigOperators

namespace Cert.Spec

open Idealize.ShloMosaic Idealize.ShloMosaic.ValueIdx

/-- A one-row matrix [1, n] of extended reals. -/
abbrev Row (n : Nat) : Type := (⟨2, ![1, n]⟩ : Shape).Idx → EReal
/-- A matrix [a, b] of extended reals. -/
abbrev Mat (a b : Nat) : Type := (⟨2, ![a, b]⟩ : Shape).Idx → EReal
/-- A vector [n] of extended reals. -/
abbrev Vc (n : Nat) : Type := (⟨1, ![n]⟩ : Shape).Idx → EReal

/-- The token word after the wrap of a negative index: t + 128000 when t < 0 (signed), else t. -/
def selTok (t : BitVec 32) : BitVec 32 :=
  Scalar.select (IntOp.cmpi .slt t 0#32) (IntOp.addi t 128000#32) t

/-- The embedding row read for the token word t: the wrapped word, clamped into 0 … 127999. -/
def rowOf (t : BitVec 32) : Fin 128000 := ⟨min (selTok t).toInt.toNat 127999, by omega⟩

/-- The embedding row of the token, as a [1, 1024] row. -/
def embRow (tok : (⟨1, ![1]⟩ : Shape).Idx → BitVec 32) (emb : Mat 128000 1024) : Row 1024 :=
  fun i => emb (ix2 (rowOf (tok (ix1 0))) (i 1))

/-- The previous hidden state [1, 1, 1024] as a [1, 1024] row. -/
def hidRow (hid : (⟨3, ![1, 1, 1024]⟩ : Shape).Idx → EReal) : Row 1024 :=
  fun i => hid (ix3 0 0 (i 1))

/-- Column q of the affine map x · Wᵀ + b: the sum over the 1024 coordinates of x[k] · W[q, k], plus b[q]. -/
def gate (x : Row 1024) (w : Mat 3072 1024) (b : Vc 3072) (q : Fin 3072) : EReal :=
  (∑ k : Fin 1024, x (ix2 0 k) * w (ix2 q k)) + b (ix1 q)

/-- Coordinate j of the new hidden row. -/
def gruAt (x h : Row 1024) (wih whh : Mat 3072 1024) (bih bhh : Vc 3072) (j : Fin 1024) : EReal :=
  let r := Ideal.logistic (gate x wih bih ⟨j.val, by omega⟩ + gate h whh bhh ⟨j.val, by omega⟩)
  let z := Ideal.logistic (gate x wih bih ⟨j.val + 1024, by omega⟩ + gate h whh bhh ⟨j.val + 1024, by omega⟩)
  let n := Ideal.tanh (gate x wih bih ⟨j.val + 2048, by omega⟩ + r * gate h whh bhh ⟨j.val + 2048, by omega⟩)
  (Ideal.ofBits .f32 0x3F800000#32 - z) * n + z * h (ix2 0 j)

/-- The new hidden row [1, 1024]. -/
def gru (x h : Row 1024) (wih whh : Mat 3072 1024) (bih bhh : Vc 3072) : Row 1024 :=
  fun i => gruAt x h wih whh bih bhh (i 1)

/-- The logit of vocabulary entry v. -/
def logitAt (hn : Row 1024) (w : Mat 128000 1024) (b : Vc 128000) (v : Fin 128000) : EReal :=
  (∑ k : Fin 1024, hn (ix2 0 k) * w (ix2 v k)) + b (ix1 v)

/-- The row [1, 128000] of logits. -/
def logit (hn : Row 1024) (w : Mat 128000 1024) (b : Vc 128000) : Row 128000 :=
  fun i => logitAt hn w b (i 1)

end Cert.Spec

end
-- ==== Proof.LibRowsDot.lean ====
/-
  A product of a matrix with the transpose of another, A · Bᵀ ("bi,hi->bh": both operands contracted on their last
  axis), as a kernel's `tpu.matmul` into the zero accumulator, read at the extended reals at an index given by
  coordinates: entry (p, q) is the sum over k of A(p, k) · B(q, k). Stated for arbitrary extents and operand formats,
  over the library's dimension numbers `DotDims.transposedRhs M K N`.
-/
import Idealize.ShloMosaic.Lib.ValueIdx
import Idealize.ShloMosaic.PureOps.Ideal.Laws

namespace Cert.Lib.RowsDot

open Idealize.ShloMosaic Idealize.ShloMosaic.ValueIdx

variable {M K N : ℕ} {φ₁ φ₂ : FTy}

/-- The left operand's row is the output's row. -/
theorem lhs_row (j : (⟨2, ![M, N]⟩ : Shape).Idx) (k : (DotDims.transposedRhs M K N).contr.Idx) :
    ((DotDims.transposedRhs M K N).lhsIdx j k 0).val = (j 0).val := by
  unfold DotDims.lhsIdx
  rw [dif_neg (show ¬(0 : Fin (⟨2, ![M, K]⟩ : Shape).rank) ∈ (DotDims.transposedRhs M K N).lhsBatch from List.not_mem_nil),
    dif_pos (show (0 : Fin (⟨2, ![M, K]⟩ : Shape).rank) ∈ (DotDims.transposedRhs M K N).lhsNonContracting from List.mem_singleton.mpr rfl)]
  rfl

/-- The right operand's row is the output's column. -/
theorem rhs_row (j : (⟨2, ![M, N]⟩ : Shape).Idx) (k : (DotDims.transposedRhs M K N).contr.Idx) :
    ((DotDims.transposedRhs M K N).rhsIdx j k 0).val = (j 1).val := by
  unfold DotDims.rhsIdx
  rw [dif_neg (show ¬(0 : Fin (⟨2, ![N, K]⟩ : Shape).rank) ∈ (DotDims.transposedRhs M K N).rhsBatch from List.not_mem_nil),
    dif_pos (show (0 : Fin (⟨2, ![N, K]⟩ : Shape).rank) ∈ (DotDims.transposedRhs M K N).rhsNonContracting from List.mem_singleton.mpr rfl)]
  rfl

/-- Entry (p, q) of A · Bᵀ accumulated into zero is the sum over k of A(p, k) · B(q, k). -/
theorem matmul_zero_apply (A : FVec Ideal ⟨2, ![M, K]⟩ φ₁) (B : FVec Ideal ⟨2, ![N, K]⟩ φ₂) (p : Fin M) (q : Fin N) :
    matmul (DotDims.transposedRhs M K N) none A B (constant ⟨2, ![M, N]⟩ .f32 0x00000000#32) (ix2 p q)
      = ∑ k : Fin K, A (ix2 p k) * B (ix2 q k) := by
  simp only [matmul]
  rw [Ideal.matmul_constant_zero_apply,
    ← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 p q)
      ((contrEquiv1 (DotDims.transposedRhs M K N) K rfl rfl).symm k) = ix2 p k := funext fun a => Fin.ext (by
    match a with
    | ⟨0, _⟩ => exact lhs_row _ _
    | ⟨1, _⟩ => exact ((DotDims.transposedRhs M K N).lhsIdx_val_of_single rfl _ _).trans hk)
  have er : (DotDims.transposedRhs M K N).rhsIdx (ix2 p q)
      ((contrEquiv1 (DotDims.transposedRhs M K N) K rfl rfl).symm k) = ix2 q k := funext fun a => Fin.ext (by
    match a with
    | ⟨0, _⟩ => exact rhs_row _ _
    | ⟨1, _⟩ => exact ((DotDims.transposedRhs M K N).rhsIdx_val_of_single rfl _ _).trans hk)
  rw [el, er]

end Cert.Lib.RowsDot
-- ==== Proof.PayVal.lean ====
/-
  The two kernel bodies' stored values, read at an index on the extended reals.

  The first body is a single step of a gated recurrent cell: the two affine maps x · Wᵀ + b of the input row and of the
  previous hidden row (3072 columns each, in the order reset | update | candidate), then, coordinate by coordinate,
  r = σ(i_r + h_r), z = σ(i_z + h_z), n = tanh(i_n + r · h_n) and (1 − z) · n + z · h. The second body is one tile of
  the output projection: h' · W_tileᵀ + b_tile. On the extended reals a change of float format is the identity, so the
  narrowing of the matrix operands disappears, and each product accumulated into the zero matrix is the plain sum over
  the 1024 contracted coordinates.
-/
import proofs.«180323_j40492951667511_2_alg».proof.Proof.Gen.KernelIdeal.Skeleton
import proofs.«180323_j40492951667511_2_alg».proof.Proof.Spec
import proofs.«180323_j40492951667511_2_alg».proof.Proof.LibRowsDot
import Idealize.ShloMosaic.Lib.Pipeline.Value
import Idealize.ShloMosaic.Lib.ValueIdx

noncomputable section

open scoped BigOperators

namespace Cert.PaySide

open Idealize.ShloMosaic Idealize.ShloMosaic.ValueIdx Cert.KernelIdeal

/-! ## Small lemmas over variables -/

section Small
variable {s : Shape} {φ : FTy}

/-- The logistic function of a vector at an index is the logistic function of the element. -/
theorem logistic_apply (a : FVec Ideal s φ) (i : s.Idx) : logistic a i = Ideal.logistic (a i) := rfl
/-- The hyperbolic tangent of a vector at an index is the hyperbolic tangent of the element. -/
theorem tanh_apply (a : FVec Ideal s φ) (i : s.Idx) : tanh a i = Ideal.tanh (a i) := rfl

end Small

/-- A block of n consecutive columns of a one-row matrix, starting at column o: entry (·, j) is the row at column
    o + j (named k here, with the equation as a side condition). -/
theorem slice_cols {α : Type} {b n : ℕ} (o : ℕ) (X : (⟨2, ![1, b]⟩ : Shape).Idx → α)
    (h : (⟨2, ![1, b]⟩ : Shape).Slices ![0, o] ⟨2, ![1, n]⟩) (u : Fin 1) (j : Fin n) (k : Fin b)
    (hk : k.val = o + j.val) :
    extractStridedSlice ⟨2, ![1, n]⟩ ![0, o] X h (ix2 u j) = X (ix2 (0 : Fin 1) k) :=
  extractStridedSlice_apply _ _ _ _ _ (fun ax => by
    match ax with
    | ⟨0, _⟩ => show 0 = 0 + u.val; omega
    | ⟨1, _⟩ => exact hk)

/-- The three blocks of 1024 columns of a [1, 3072] row. -/
theorem slice0 {α : Type} (X : S1x3072.Idx → α) (h : S1x3072.Slices ![0, 0] S1x1024) (j : Fin 1024) :
    extractStridedSlice S1x1024 ![0, 0] X h (ix2 (0 : Fin 1) j) = X (ix2 (0 : Fin 1) (⟨j.val, by omega⟩ : Fin 3072)) :=
  slice_cols 0 X h 0 j _ (Nat.zero_add _).symm
theorem slice1 {α : Type} (X : S1x3072.Idx → α) (h : S1x3072.Slices ![0, 1024] S1x1024) (j : Fin 1024) :
    extractStridedSlice S1x1024 ![0, 1024] X h (ix2 (0 : Fin 1) j) = X (ix2 (0 : Fin 1) (⟨j.val + 1024, by omega⟩ : Fin 3072)) :=
  slice_cols 1024 X h 0 j _ (Nat.add_comm _ _)
theorem slice2 {α : Type} (X : S1x3072.Idx → α) (h : S1x3072.Slices ![0, 2048] S1x1024) (j : Fin 1024) :
    extractStridedSlice S1x1024 ![0, 2048] X h (ix2 (0 : Fin 1) j) = X (ix2 (0 : Fin 1) (⟨j.val + 2048, by omega⟩ : Fin 3072)) :=
  slice_cols 2048 X h 0 j _ (Nat.add_comm _ _)

/-! ## The affine maps -/

/-- The printed dimension numbers of the first body's products are those of A · Bᵀ. -/
theorem dot0_eq : dot_S1x1024_S3072x1024_S1x3072_1_1_0_0_n_n = DotDims.transposedRhs 1 1024 3072 := rfl
/-- The printed dimension numbers of the second body's product are those of A · Bᵀ. -/
theorem dot1_eq : dot_S1x1024_S2560x1024_S1x2560_1_1_0_0_n_n = DotDims.transposedRhs 1 1024 2560 := rfl

/-- Column q of one tile of the output projection. -/
theorem tileRow_apply (x : Vec Ideal S1x1024 .f32) (w : Vec Ideal S2560x1024 .f32) (b : Vec Ideal S1x2560 .f32)
    (hx : S1x1024.ShapeCasts S1x1024) (hb : S1x2560.ShapeCasts S1x2560) (hφ : FTy.bits .bf16 < FTy.bits .f32)
    (q : Fin 2560) :
    addf (F := Ideal) (matmul dot_S1x1024_S2560x1024_S1x2560_1_1_0_0_n_n none (truncf .bf16 (shapeCast S1x1024 x hx) hφ)
        (truncf .bf16 w hφ) (constant S1x2560 .f32 0x00000000#32)) (shapeCast S1x2560 b hb) (ix2 (0 : Fin 1) q)
      = (∑ k : Fin 1024, x (ix2 (0 : Fin 1) k) * w (ix2 q k)) + b (ix2 (0 : Fin 1) q) := by
  rw [shapeCast_self, shapeCast_self, addf_apply, dot1_eq]
  refine (congrArg (· + b (ix2 (0 : Fin 1) q)) (Cert.Lib.RowsDot.matmul_zero_apply _ _ (0 : Fin 1) q)).trans ?_
  rfl

/-- Entry (0, q) of the first body's product, on narrowed operands, accumulated into zero. -/
theorem mm0_apply (x : Vec Ideal S1x1024 .f32) (w : Vec Ideal S3072x1024 .f32) (hφ : FTy.bits .bf16 < FTy.bits .f32)
    (q : Fin 3072) :
    matmul (F := Ideal) dot_S1x1024_S3072x1024_S1x3072_1_1_0_0_n_n none (truncf .bf16 x hφ) (truncf .bf16 w hφ)
        (constant S1x3072 .f32 0x00000000#32) (ix2 (0 : Fin 1) q)
      = ∑ k : Fin 1024, x (ix2 (0 : Fin 1) k) * w (ix2 q k) := by
  rw [dot0_eq]
  exact Cert.Lib.RowsDot.matmul_zero_apply _ _ (0 : Fin 1) q

/-! ## The two stored values -/

/-- One tile of logits at column j: the sum over the 1024 hidden coordinates plus the bias. -/
theorem pay1_apply (hn : Vec Ideal S1x1024 .f32) (w : Vec Ideal S2560x1024 .f32) (b : Vec Ideal S1x2560 .f32) (j : Fin 2560) :
    Cert.KernelIdeal.Gen.k1_pay1 (F := Ideal) hn w b (ix2 (0 : Fin 1) j)
      = (∑ k : Fin 1024, hn (ix2 (0 : Fin 1) k) * w (ix2 j k)) + b (ix2 (0 : Fin 1) j) :=
  tileRow_apply hn w b _ _ _ j

/-- The new hidden row at coordinate j. -/
theorem pay0_apply (x h : Vec Ideal S1x1024 .f32) (wih whh : Vec Ideal S3072x1024 .f32) (b1 b2 : Vec Ideal S1x3072 .f32)
    (j : Fin 1024) :
    Cert.KernelIdeal.Gen.k0_pay1 (F := Ideal) x h wih whh b1 b2 (ix2 (0 : Fin 1) j)
      = Cert.Spec.gruAt x h wih whh (fun q => b1 (ix2 (0 : Fin 1) (q 0))) (fun q => b2 (ix2 (0 : Fin 1) (q 0))) j := by
  unfold Cert.KernelIdeal.Gen.k0_pay1 Cert.Spec.gruAt
  simp only [shapeCast_self, addf_apply, mulf_apply, subf_apply, logistic_apply, tanh_apply, broadcast_apply, slice0,
    slice1, slice2, mm0_apply]
  rfl

end Cert.PaySide

end
-- ==== Proof.KI.Val.lean ====
/-
  What the two kernel regions leave in their output arrays, on the extended reals, as functions of the buffer
  contents V each region is entered with.

  Region 0 has one grid point and whole-array blocks: its output array [1, 1024] ends at the new hidden row, coordinate
  j the GRU cell's value at j of the six operand arrays.  Region 1 has fifty points; point t reads rows
  2560·t … 2560·t + 2559 of the weight matrix and the same columns of the bias row, and writes those columns of the
  output row; the fifty column ranges tile the 128000 columns, so the output array ends at the logit row, column v the
  contraction of the hidden row with weight row v plus the bias at v.
-/
import proofs.«180323_j40492951667511_2_alg».proof.Proof.KI.Body0
import proofs.«180323_j40492951667511_2_alg».proof.Proof.KI.Body1
import proofs.«180323_j40492951667511_2_alg».proof.Proof.PayVal
import proofs.«180323_j40492951667511_2_alg».proof.Proof.Spec
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-! ## Region 0 -/

/-- The printed index maps of region 0, decided over its one point: every block index is zero. -/
theorem idx_facts0 : ∀ t : Fin cfg0.N, win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0 :=
  (by decide +kernel : ∀ t : Fin grid0.N, _)

/-- Each input block of region 0 is its whole array. -/
theorem iblk0_0 (c : Dev nD) (t : Fin cfg0.N) : (iblk0 V c 0 t : Vec Ideal S1x1024 .f32) = (V c main_v9 : Vec Ideal S1x1024 .f32) := by
  obtain ⟨e0, e1, -⟩ := idx_facts0 t
  funext y
  show V c main_v9 (((cfg0.win 0).blk t).view.emb y) = V c main_v9 y
  refine congrArg (V c main_v9) (funext fun a => Fin.ext ?_)
  match a with
  | ⟨0, _⟩ => show win0_0.index t (0 : Fin 2) * 1 + 1 * (y 0).val = (y 0).val; omega
  | ⟨1, _⟩ => show win0_0.index t (1 : Fin 2) * 1024 + 1 * (y 1).val = (y 1).val; omega
theorem iblk0_1 (c : Dev nD) (t : Fin cfg0.N) : (iblk0 V c 1 t : Vec Ideal S1x1024 .f32) = (V c main_v10 : Vec Ideal S1x1024 .f32) := by
  obtain ⟨-, -, e0, e1, -⟩ := idx_facts0 t
  funext y
  show V c main_v10 (((cfg0.win 1).blk t).view.emb y) = V c main_v10 y
  refine congrArg (V c main_v10) (funext fun a => Fin.ext ?_)
  match a with
  | ⟨0, _⟩ => show win0_1.index t (0 : Fin 2) * 1 + 1 * (y 0).val = (y 0).val; omega
  | ⟨1, _⟩ => show win0_1.index t (1 : Fin 2) * 1024 + 1 * (y 1).val = (y 1).val; omega
theorem iblk0_2 (c : Dev nD) (t : Fin cfg0.N) : (iblk0 V c 2 t : Vec Ideal S3072x1024 .f32) = (V c main_arg3 : Vec Ideal S3072x1024 .f32) := by
  obtain ⟨-, -, -, -, e0, e1, -⟩ := idx_facts0 t
  funext y
  show V c main_arg3 (((cfg0.win 2).blk t).view.emb y) = V c main_arg3 y
  refine congrArg (V c main_arg3) (funext fun a => Fin.ext ?_)
  match a with
  | ⟨0, _⟩ => show win0_2.index t (0 : Fin 2) * 3072 + 1 * (y 0).val = (y 0).val; omega
  | ⟨1, _⟩ => show win0_2.index t (1 : Fin 2) * 1024 + 1 * (y 1).val = (y 1).val; omega
theorem iblk0_3 (c : Dev nD) (t : Fin cfg0.N) : (iblk0 V c 3 t : Vec Ideal S3072x1024 .f32) = (V c main_arg4 : Vec Ideal S3072x1024 .f32) := by
  obtain ⟨-, -, -, -, -, -, e0, e1, -⟩ := idx_facts0 t
  funext y
  show V c main_arg4 (((cfg0.win 3).blk t).view.emb y) = V c main_arg4 y
  refine congrArg (V c main_arg4) (funext fun a => Fin.ext ?_)
  match a with
  | ⟨0, _⟩ => show win0_3.index t (0 : Fin 2) * 3072 + 1 * (y 0).val = (y 0).val; omega
  | ⟨1, _⟩ => show win0_3.index t (1 : Fin 2) * 1024 + 1 * (y 1).val = (y 1).val; omega
theorem iblk0_4 (c : Dev nD) (t : Fin cfg0.N) : (iblk0 V c 4 t : Vec Ideal S1x3072 .f32) = (V c main_v11 : Vec Ideal S1x3072 .f32) := by
  obtain ⟨-, -, -, -, -, -, -, -, e0, e1, -⟩ := idx_facts0 t
  funext y
  show V c main_v11 (((cfg0.win 4).blk t).view.emb y) = V c main_v11 y
  refine congrArg (V c main_v11) (funext fun a => Fin.ext ?_)
  match a with
  | ⟨0, _⟩ => show win0_4.index t (0 : Fin 2) * 1 + 1 * (y 0).val = (y 0).val; omega
  | ⟨1, _⟩ => show win0_4.index t (1 : Fin 2) * 3072 + 1 * (y 1).val = (y 1).val; omega
theorem iblk0_5 (c : Dev nD) (t : Fin cfg0.N) : (iblk0 V c 5 t : Vec Ideal S1x3072 .f32) = (V c main_v12 : Vec Ideal S1x3072 .f32) := by
  obtain ⟨-, -, -, -, -, -, -, -, -, -, e0, e1, -⟩ := idx_facts0 t
  funext y
  show V c main_v12 (((cfg0.win 5).blk t).view.emb y) = V c main_v12 y
  refine congrArg (V c main_v12) (funext fun a => Fin.ext ?_)
  match a with
  | ⟨0, _⟩ => show win0_5.index t (0 : Fin 2) * 1 + 1 * (y 0).val = (y 0).val; omega
  | ⟨1, _⟩ => show win0_5.index t (1 : Fin 2) * 3072 + 1 * (y 1).val = (y 1).val; omega

/-- The new hidden row as region 0 computes it from the buffers it is entered with. -/
def G0 (c : Dev nD) : S1x1024.Idx → EReal := fun i =>
  Cert.Spec.gruAt (V c main_v9 : Vec Ideal S1x1024 .f32) (V c main_v10 : Vec Ideal S1x1024 .f32)
    (V c main_arg3 : Vec Ideal S3072x1024 .f32) (V c main_arg4 : Vec Ideal S3072x1024 .f32)
    (fun q => (V c main_v11 : Vec Ideal S1x3072 .f32) (ix2 (0 : Fin 1) (q 0))) (fun q => (V c main_v12 : Vec Ideal S1x3072 .f32) (ix2 (0 : Fin 1) (q 0))) (i 1)

/-- What the one point of region 0 writes back is the block of G0. -/
theorem flushed0_eq (c : Dev nD) (t : Fin cfg0.N) :
    (dat0 V c).flushed 6 t = ((cfg0.win 6).blk t).view.read (Elt Ideal) (G0 V c) := by
  show (cfg0.win 6).cut (grid0.coords t) ((dat0 V c).after 6 t) = _
  rw [after0_6]
  unfold out0_6
  rw [View.canon_unit_zero hz]
  simp only [View.ld_unit_zero (S := S1x1024) hz, View.ld_unit_zero (S := S3072x1024) hz, View.ld_unit_zero (S := S1x3072) hz]
  rw [iblk0_0 V c t, iblk0_1 V c t, iblk0_2 V c t, iblk0_3 V c t, iblk0_4 V c t, iblk0_5 V c t]
  obtain ⟨-, -, -, -, -, -, -, -, -, -, -, -, e0, e1⟩ := idx_facts0 t
  funext j
  obtain ⟨u, q, rfl⟩ : ∃ (u : Fin 1) (q : Fin 1024), j = ix2 u q := ⟨j 0, j 1, eq_ix2 j⟩
  obtain rfl : u = 0 := Subsingleton.elim _ _
  show k0_pay1 (F := Ideal) (V c main_v9) (V c main_v10) (V c main_arg3) (V c main_arg4) (V c main_v11) (V c main_v12) (ix2 (0 : Fin 1) q)
      = G0 V c (((cfg0.win 6).blk t).view.emb (ix2 (0 : Fin 1) q))
  refine (Cert.PaySide.pay0_apply _ _ _ _ _ _ q).trans ?_
  unfold G0
  refine congrArg (Cert.Spec.gruAt _ _ _ _ _ _) (Fin.ext ?_)
  show q.val = win0_6.index t (1 : Fin 2) * 1024 + 1 * q.val
  omega

theorem mem_blk0 (t : Fin cfg0.N) (i : S1x1024.Idx) :
    i ∈ ((cfg0.win 6).blk t).view.set ↔ ∀ a : Fin 2, win0_6.index t a * S1x1024.size a ≤ (i a).val ∧ (i a).val < win0_6.index t a * S1x1024.size a + S1x1024.size a := by
  show i ∈ ((View.whole main_v13).slice (win0_6.rect t)).set ↔ _
  rw [View.set_slice_whole, Rect.mem_set_unit]
  exact Iff.rfl

/-- Region 0's output array after the region: the new hidden row. -/
theorem final0 (c : Dev nD) : (dat0 V c).arrAt 6 cfg0.N = G0 V c :=
  (dat0 V c).arrAt_eq_of_cover 6 (G0 V c) (fun t _ => flushed0_eq V c t) (fun i => by
    refine ⟨t0_0, flush0_6 t0_0, ?_⟩
    rw [mem_blk0]
    obtain ⟨-, -, -, -, -, -, -, -, -, -, -, -, e0, e1⟩ := idx_facts0 t0_0
    have hi0 : (i 0).val < 1 := (i 0).isLt
    have hi1 : (i 1).val < 1024 := (i 1).isLt
    intro a
    match a with
    | ⟨0, _⟩ => show win0_6.index t0_0 (0 : Fin 2) * 1 ≤ (i 0).val ∧ (i 0).val < win0_6.index t0_0 (0 : Fin 2) * 1 + 1; omega
    | ⟨1, _⟩ => show win0_6.index t0_0 (1 : Fin 2) * 1024 ≤ (i 1).val ∧ (i 1).val < win0_6.index t0_0 (1 : Fin 2) * 1024 + 1024; omega)

/-! ## Region 1 -/

/-- The printed index maps of region 1, decided over its fifty points: the hidden row's block index is zero; the weight
    tile moves down the rows, the bias and output tiles along the columns, with the point. -/
theorem idx_facts1 : ∀ t : Fin cfg1.N, win1_0.index t (0 : Fin 2) = 0 ∧ win1_0.index t (1 : Fin 2) = 0
    ∧ win1_1.index t (0 : Fin 2) = t.val ∧ win1_1.index t (1 : Fin 2) = 0
    ∧ win1_2.index t (0 : Fin 2) = 0 ∧ win1_2.index t (1 : Fin 2) = t.val
    ∧ win1_3.index t (0 : Fin 2) = 0 ∧ win1_3.index t (1 : Fin 2) = t.val :=
  (by decide +kernel : ∀ t : Fin grid1.N, _)

/-- The hidden row's block is the whole row at every point. -/
theorem iblk1_0 (c : Dev nD) (t : Fin cfg1.N) : (iblk1 V c 0 t : Vec Ideal S1x1024 .f32) = (V c main_v13 : Vec Ideal S1x1024 .f32) := by
  obtain ⟨e0, e1, -⟩ := idx_facts1 t
  funext y
  show V c main_v13 (((cfg1.win 0).blk t).view.emb y) = V c main_v13 y
  refine congrArg (V c main_v13) (funext fun a => Fin.ext ?_)
  match a with
  | ⟨0, _⟩ => show win1_0.index t (0 : Fin 2) * 1 + 1 * (y 0).val = (y 0).val; omega
  | ⟨1, _⟩ => show win1_0.index t (1 : Fin 2) * 1024 + 1 * (y 1).val = (y 1).val; omega

/-- Entry (q, k) of the weight tile at point t is entry (2560·t + q, k) of the weight matrix. -/
theorem iblk1_1_apply (c : Dev nD) (t : Fin cfg1.N) (q : Fin 2560) (k : Fin 1024) (r : Fin 128000) (hr : r.val = t.val * 2560 + q.val) :
    (iblk1 V c 1 t : Vec Ideal S2560x1024 .f32) (ix2 q k) = (V c main_arg7 : Vec Ideal S128000x1024 .f32) (ix2 r k) := by
  obtain ⟨-, -, e0, e1, -⟩ := idx_facts1 t
  show V c main_arg7 (((cfg1.win 1).blk t).view.emb (ix2 q k)) = V c main_arg7 (ix2 r k)
  refine congrArg (V c main_arg7) (funext fun a => Fin.ext ?_)
  match a with
  | ⟨0, _⟩ => show win1_1.index t (0 : Fin 2) * 2560 + 1 * q.val = r.val; omega
  | ⟨1, _⟩ => show win1_1.index t (1 : Fin 2) * 1024 + 1 * k.val = k.val; omega

/-- Entry q of the bias tile at point t is entry 2560·t + q of the bias row. -/
theorem iblk1_2_apply (c : Dev nD) (t : Fin cfg1.N) (q : Fin 2560) (r : Fin 128000) (hr : r.val = t.val * 2560 + q.val) :
    (iblk1 V c 2 t : Vec Ideal S1x2560 .f32) (ix2 (0 : Fin 1) q) = (V c main_v14 : Vec Ideal S1x128000 .f32) (ix2 (0 : Fin 1) r) := by
  obtain ⟨-, -, -, -, e0, e1, -⟩ := idx_facts1 t
  show V c main_v14 (((cfg1.win 2).blk t).view.emb (ix2 (0 : Fin 1) q)) = V c main_v14 (ix2 (0 : Fin 1) r)
  refine congrArg (V c main_v14) (funext fun a => Fin.ext ?_)
  match a with
  | ⟨0, _⟩ => show win1_2.index t (0 : Fin 2) * 1 + 1 * 0 = 0; omega
  | ⟨1, _⟩ => show win1_2.index t (1 : Fin 2) * 2560 + 1 * q.val = r.val; omega

/-- The logit row as region 1 computes it from the buffers it is entered with. -/
def G1 (c : Dev nD) : S1x128000.Idx → EReal := fun i =>
  Cert.Spec.logitAt (V c main_v13 : Vec Ideal S1x1024 .f32) (V c main_arg7 : Vec Ideal S128000x1024 .f32)
    (fun q => (V c main_v14 : Vec Ideal S1x128000 .f32) (ix2 (0 : Fin 1) (q 0))) (i 1)

/-- What point t of region 1 writes back is block t of G1. -/
theorem flushed1_eq (c : Dev nD) (t : Fin cfg1.N) :
    (dat1 V c).flushed 3 t = ((cfg1.win 3).blk t).view.read (Elt Ideal) (G1 V c) := by
  show (cfg1.win 3).cut (grid1.coords t) ((dat1 V c).after 3 t) = _
  rw [after1_3]
  unfold out1_3
  rw [View.canon_unit_zero hz]
  simp only [View.ld_unit_zero (S := S1x1024) hz, View.ld_unit_zero (S := S2560x1024) hz, View.ld_unit_zero (S := S1x2560) hz]
  rw [iblk1_0 V c t]
  obtain ⟨-, -, -, -, -, -, e0, e1⟩ := idx_facts1 t
  have htN : t.val < 50 := lt_of_lt_of_eq t.isLt (show cfg1.N = 50 from N_1)
  funext j
  obtain ⟨u, q, rfl⟩ : ∃ (u : Fin 1) (q : Fin 2560), j = ix2 u q := ⟨j 0, j 1, eq_ix2 j⟩
  obtain rfl : u = 0 := Subsingleton.elim _ _
  show k1_pay1 (F := Ideal) (V c main_v13) (iblk1 V c 1 t) (iblk1 V c 2 t) (ix2 (0 : Fin 1) q)
      = G1 V c (((cfg1.win 3).blk t).view.emb (ix2 (0 : Fin 1) q))
  refine (Cert.PaySide.pay1_apply _ _ _ q).trans ?_
  have hq : q.val < 2560 := q.isLt
  have hr : t.val * 2560 + q.val < 128000 := by omega
  have hemb : (((cfg1.win 3).blk t).view.emb (ix2 (0 : Fin 1) q)) (1 : Fin 2) = (⟨t.val * 2560 + q.val, hr⟩ : Fin 128000) :=
    Fin.ext (by show win1_3.index t (1 : Fin 2) * 2560 + 1 * q.val = t.val * 2560 + q.val; omega)
  unfold G1 Cert.Spec.logitAt
  rw [hemb]
  rw [iblk1_2_apply V c t q ⟨t.val * 2560 + q.val, hr⟩ rfl]
  refine congrArg (· + _) (Finset.sum_congr rfl fun k _ => ?_)
  rw [iblk1_1_apply V c t q k ⟨t.val * 2560 + q.val, hr⟩ rfl]

theorem mem_blk1 (t : Fin cfg1.N) (i : S1x128000.Idx) :
    i ∈ ((cfg1.win 3).blk t).view.set ↔ ∀ a : Fin 2, win1_3.index t a * S1x2560.size a ≤ (i a).val ∧ (i a).val < win1_3.index t a * S1x2560.size a + S1x2560.size a := by
  show i ∈ ((View.whole main_v15).slice (win1_3.rect t)).set ↔ _
  rw [View.set_slice_whole, Rect.mem_set_unit]
  exact Iff.rfl

/-- Region 1's output array after the region: the logit row. -/
theorem final1 (c : Dev nD) : (dat1 V c).arrAt 3 cfg1.N = G1 V c :=
  (dat1 V c).arrAt_eq_of_cover 3 (G1 V c) (fun t _ => flushed1_eq V c t) (fun i => by
    have hi0 : (i 0).val < 1 := (i 0).isLt
    have hi1 : (i 1).val < 128000 := (i 1).isLt
    have hN : cfg1.N = 50 := N_1
    refine ⟨⟨(i 1).val / 2560, by rw [hN]; omega⟩, flush1_3 _, ?_⟩
    rw [mem_blk1]
    obtain ⟨-, -, -, -, -, -, e0, e1⟩ := idx_facts1 ⟨(i 1).val / 2560, by rw [hN]; omega⟩
    intro a
    match a with
    | ⟨0, _⟩ => show win1_3.index _ (0 : Fin 2) * 1 ≤ (i 0).val ∧ (i 0).val < win1_3.index _ (0 : Fin 2) * 1 + 1; omega
    | ⟨1, _⟩ =>
      show win1_3.index _ (1 : Fin 2) * 2560 ≤ (i 1).val ∧ (i 1).val < win1_3.index _ (1 : Fin 2) * 2560 + 2560
      rw [e1]; show (i 1).val / 2560 * 2560 ≤ (i 1).val ∧ (i 1).val < (i 1).val / 2560 * 2560 + 2560; omega)

end Cert.KernelIdeal.Hand

end
-- ==== Proof.LibTypedRefs.lean ====
/-
  Typed references of an inlined host function: a value moved to the buffer's own type and back is itself.

  A host function that was outlined (max(·, 0), log-softmax, …) is written over references that carry the type of the
  tensor they hold.  Each of its operations writes its result through the transport from the tensor's type to the
  buffer's type and reads each operand through the transport back, both along the equation "the buffer's type is the
  tensor's type".  When such a stretch of operations is read back as one composed term, every intermediate value is left
  wrapped in the pair: back ∘ there.  The pair is the identity for ANY typed reference (destruct the reference and
  substitute its equation), so it can be rewritten away without knowing the references.  What then remains is at most
  one transport per buffer that an operation outside the function wrote and one at the function's result, each the
  identity by computation at its literal reference over a variable value.  On a deep body (log-softmax is fifteen
  operations) removing the pairs first keeps the comparison of the composed term with its closed form a comparison of
  syntax, where leaving them in makes it unfold the operations themselves at their full extents.
-/
import Idealize.ShloMosaic.Lib.StableHlo

namespace Cert.Lib.TypedRefs

open Idealize.ShloMosaic Idealize.ShloMosaic.StableHlo

variable {sig : RefSig} {Val : EltTy → Type} {T : BufTy}

/-- To the buffer's type and back. -/
theorem ofBuf_toBuf (x : TRef sig T) (v : T.Contents Val) : x.ofBuf (x.toBuf v) = v := by
  obtain ⟨r, h, h2, h3⟩ := x
  subst h
  rfl

/-- To the tensor's type and back. -/
theorem toBuf_ofBuf (x : TRef sig T) (v : x.ref.ty.Contents Val) : x.toBuf (x.ofBuf v) = v := by
  obtain ⟨r, h, h2, h3⟩ := x
  subst h
  rfl

end Cert.Lib.TypedRefs
-- ==== Proof.LibRunPieces.lean ====
/-
  Two facts for reading a long host program's run in pieces.

  The buffer contents after a list of host operations are a fold of the operations' results.  Over a concatenation the
  fold runs the first part and then the second from what the first left: a long program can be read up to an intermediate
  buffer and then from it, instead of as one term.

  An operation of a called function is stated at the tensor value's type and carried to the buffer's own type and back
  along the reference's type equation.  Carrying there and back is the identity, whatever the equation's proof: where one
  operation's output feeds the next, the two carryings cancel by rewriting, and nothing has to be unfolded.  (Left to
  definitional unfolding, a reduction over a large shape on one side and its carried form on the other can make the
  unifier evaluate the reduction.)
-/
import Idealize.ShloMosaic.Lib.StableHlo.Run

noncomputable section

namespace Cert.Lib.RunPieces

open Idealize.ShloMosaic Idealize.ShloMosaic.StableHlo

variable {τ : Topo} {sig : RefSig} {Val : EltTy → Type}

/-- Running a concatenation of operations is running its halves in turn. -/
theorem after_append (l₁ l₂ : List (HloOp τ sig Val)) (V : Valuation τ sig Val) :
    after (l₁ ++ l₂) V = after l₂ (after l₁ V) := by
  induction l₁ generalizing V with
  | nil => rfl
  | cons op l ih => exact ih (op.result V)

/-- Contents carried to a typed reference's own buffer type and back are the contents. -/
theorem ofBuf_toBuf {T : BufTy} (x : TRef sig T) (v : T.Contents Val) : x.ofBuf (x.toBuf v) = v := by
  unfold TRef.ofBuf TRef.toBuf
  rw [cast_cast, cast_eq]

/-- Contents of the buffer's own type carried to the value's type and back are the contents. -/
theorem toBuf_ofBuf {T : BufTy} (x : TRef sig T) (w : x.ref.ty.Contents Val) : x.toBuf (x.ofBuf w) = w := by
  unfold TRef.ofBuf TRef.toBuf
  rw [cast_cast, cast_eq]

end Cert.Lib.RunPieces

end
-- ==== Proof.KI.Ends.lean ====
/-
  What the host stretches of @main leave, on the extended reals, as functions of a stretch's entry contents X.

  Before the first kernel region: the token word goes through jax's index normalisation (a negative word counts from the
  end) and a dynamic slice of one row of the embedding table, whose start is clamped into the table; two reshapes make
  the row [1, 1024]; the previous hidden state, the two gate biases are reshaped to one-row matrices.  Between the regions
  the output bias is reshaped to a one-row matrix.  After the regions: the log-softmax of the logit row, kept as ONE
  function of the row (its reductions over 128000 entries are never opened), and the reshape of the new hidden row to
  [1, 1, 1024].
-/
import proofs.«180323_j40492951667511_2_alg».proof.Proof.KI.Run
import proofs.«180323_j40492951667511_2_alg».proof.Proof.LibTypedRefs
import proofs.«180323_j40492951667511_2_alg».proof.Proof.LibRunPieces
import proofs.«180323_j40492951667511_2_alg».proof.Proof.Spec
import Idealize.ShloMosaic.Lib.StableHlo.Run
import Idealize.ShloMosaic.Lib.DynamicIndex
import Idealize.ShloMosaic.Lib.Pipeline.Value
import Idealize.ShloMosaic.Lib.ValueIdx
import Idealize.ShloMosaic.Lib.ValueLayout
import Idealize.ShloMosaic.PureOps.Ideal

set_option maxRecDepth 16384

noncomputable section

namespace Cert.KernelIdeal.Hand

open Idealize.ShloMosaic Idealize.ShloMosaic.TcCoe Idealize.ShloMosaic.StableHlo Idealize.ShloMosaic.ValueIdx
open Cert.KernelIdeal Cert.KernelIdeal.Gen

variable (X : Valuation τ sig (Elt Ideal))

/-! ## The reshapes -/

theorem ops0_v10 : StableHlo.after (hostOps0 (F := Ideal)) X (Proc.devRef .tc main_v10)
    = shapeCast S1x1024 (X (Proc.devRef .tc main_arg1) : S1x1x1024.Idx → EReal) shapeCasts_S1x1x1024_S1x1024 := by
  after_results; rfl
theorem ops0_v11 : StableHlo.after (hostOps0 (F := Ideal)) X (Proc.devRef .tc main_v11)
    = shapeCast S1x3072 (X (Proc.devRef .tc main_arg5) : S3072.Idx → EReal) shapeCasts_S3072_S1x3072 := by
  after_results; rfl
theorem ops0_v12 : StableHlo.after (hostOps0 (F := Ideal)) X (Proc.devRef .tc main_v12)
    = shapeCast S1x3072 (X (Proc.devRef .tc main_arg6) : S3072.Idx → EReal) shapeCasts_S3072_S1x3072 := by
  after_results; rfl
theorem ops0_arg3 : StableHlo.after (hostOps0 (F := Ideal)) X (Proc.devRef .tc main_arg3) = X (Proc.devRef .tc main_arg3) :=
  StableHlo.after_of_writes_sub hostOps0 _ hostOps0_writes (by decide)
theorem ops0_arg4 : StableHlo.after (hostOps0 (F := Ideal)) X (Proc.devRef .tc main_arg4) = X (Proc.devRef .tc main_arg4) :=
  StableHlo.after_of_writes_sub hostOps0 _ hostOps0_writes (by decide)
theorem ops1_v14 : StableHlo.after (hostOps1 (F := Ideal)) X (Proc.devRef .tc main_v14)
    = shapeCast S1x128000 (X (Proc.devRef .tc main_arg8) : S128000.Idx → EReal) shapeCasts_S128000_S1x128000 := by
  after_results; rfl
theorem ops2_1_v17 : StableHlo.after (hostOps2_1 (F := Ideal)) X (Proc.devRef .tc main_v17)
    = shapeCast S1x1x1024 (X (Proc.devRef .tc main_v13) : S1x1024.Idx → EReal) shapeCasts_S1x1024_S1x1x1024 := by
  after_results; rfl

/-! ## The log-softmax -/

/-- The log-softmax of a logit row as the program's host operations compose it. -/
def tailK (x : FVec Ideal S1x128000 .f32) : FVec Ideal S1x128000 .f32 :=
  subf
    (subf x
      (broadcastInDim S1x128000 ![0, 1] bcast_S1x1_S1x128000_0_1
        (broadcastInDim S1x1 ![0] bcast_S1_S1x1_0
          (maximumf (broadcastInDim S1 ![] bcast_S_S1 (constant (F := Ideal) S_ .f32 0xFF800000#32))
            (Host.reduce (FloatOps.maximumf (F := Ideal)) x (constant (F := Ideal) S_ .f32 0xFF800000#32)
              reducesTo_S1x128000_S1_d1 h_S_)))))
    (broadcastInDim S1x128000 ![0, 1] bcast_S1x1_S1x128000_0_1
      (Host.log (F := Ideal)
        (broadcastInDim S1x1 ![0] bcast_S1_S1x1_0
          (Host.reduceAdd (F := Ideal)
            (Host.exp (F := Ideal)
              (subf x
                (broadcastInDim S1x128000 ![0, 1] bcast_S1x1_S1x128000_0_1
                  (broadcastInDim S1x1 ![0] bcast_S1_S1x1_0
                    (maximumf (broadcastInDim S1 ![] bcast_S_S1 (constant (F := Ideal) S_ .f32 0xFF800000#32))
                      (Host.reduce (FloatOps.maximumf (F := Ideal)) x (constant (F := Ideal) S_ .f32 0xFF800000#32)
                        reducesTo_S1x128000_S1_d1 h_S_))))))
            (constant (F := Ideal) S_ .f32 0x00000000#32) reducesTo_S1x128000_S1_d1 h_S_))))

/-- The one transport left at the function's operand, at its literal reference, is the identity. -/
theorem ofBuf_v15 (h1 h2 h3) (v : (TRef.of (sig := sig) (T := ⟨S1x128000, .f32⟩) main_v15 h1 h2 h3).ref.ty.Contents (Elt Ideal)) :
    (TRef.of (sig := sig) (T := ⟨S1x128000, .f32⟩) main_v15 h1 h2 h3).ofBuf v = v := rfl
/-- The one transport left at the function's result, at its literal reference, is the identity. -/
theorem toBuf_v16 (h1 h2 h3) (v : (⟨S1x128000, .f32⟩ : BufTy).Contents (Elt Ideal)) :
    (TRef.of (sig := sig) (T := ⟨S1x128000, .f32⟩) main_v16 h1 h2 h3).toBuf v = v := rfl

theorem ops2_v16 : StableHlo.after (hostOps2 (F := Ideal)) X (Proc.devRef .tc main_v16)
    = tailK (X (Proc.devRef .tc main_v15) : S1x128000.Idx → EReal) := by
  after_results
  simp only [Cert.Lib.TypedRefs.ofBuf_toBuf, Cert.Lib.TypedRefs.toBuf_ofBuf, ofBuf_v15, toBuf_v16]
  unfold tailK
  rfl

/-! ## The embedding row -/

/-- The token word as a scalar, after jax's wrap of a negative index. -/
def selK (tok : S1.Idx → BitVec 32) : S_.Idx → BitVec 32 :=
  select (cmpi .slt (shapeCast S_ tok shapeCasts_S1_S_) (constantI S_ 32 0#32))
    (addi (shapeCast S_ tok shapeCasts_S1_S_) (constantI S_ 32 128000#32)) (shapeCast S_ tok shapeCasts_S1_S_)
/-- The column start, after the same wrap of the literal zero. -/
def zeroK : S_.Idx → BitVec 32 :=
  select (cmpi .slt (constantI S_ 32 0#32) (constantI S_ 32 0#32))
    (addi (constantI S_ 32 0#32) (constantI S_ 32 1024#32)) (constantI S_ 32 0#32)

theorem selK_apply (tok : S1.Idx → BitVec 32) (i : S_.Idx) : selK tok i = Cert.Spec.selTok (tok (ix1 (0 : Fin 1))) := by
  have hc : shapeCast S_ tok shapeCasts_S1_S_ i = tok (ix1 (0 : Fin 1)) :=
    shapeCast_apply tok shapeCasts_S1_S_ i (ix1 (0 : Fin 1)) (by
      rw [Shape.rowMajor_val_one]
      have h := (S_.rowMajor i).isLt
      have hn : S_.numel = 1 := rfl
      show (0 : ℕ) = (S_.rowMajor i).val
      omega)
  show Scalar.select (IntOp.cmpi .slt (shapeCast S_ tok shapeCasts_S1_S_ i) 0#32)
      (IntOp.addi (shapeCast S_ tok shapeCasts_S1_S_ i) 128000#32) (shapeCast S_ tok shapeCasts_S1_S_ i) = _
  rw [hc]
  rfl

theorem zeroK_apply (i : S_.Idx) : (zeroK i).toInt = 0 := by
  show (Scalar.select (IntOp.cmpi .slt (0#32 : BitVec 32) 0#32) (IntOp.addi (0#32 : BitVec 32) 1024#32) (0#32 : BitVec 32)).toInt = 0
  decide

theorem ops0_v9 : StableHlo.after (hostOps0 (F := Ideal)) X (Proc.devRef .tc main_v9)
    = (Cert.Spec.embRow (X (Proc.devRef .tc main_arg0) : S1.Idx → BitVec 32) (X (Proc.devRef .tc main_arg2) : S128000x1024.Idx → EReal) : S1x1024.Idx → EReal) := by
  rw [← List.take_append_drop 14 (hostOps0 (F := Ideal)), Cert.Lib.RunPieces.after_append]
  have h2 : StableHlo.after (List.take 14 (hostOps0 (F := Ideal))) X (Proc.devRef .tc main_arg2) = X (Proc.devRef .tc main_arg2) := by
    simp only [List.take]; after_results
  have h3 : StableHlo.after (List.take 14 (hostOps0 (F := Ideal))) X (Proc.devRef .tc main_v3)
      = selK (X (Proc.devRef .tc main_arg0) : S1.Idx → BitVec 32) := by
    simp only [List.take]; after_results; rfl
  have h6 : StableHlo.after (List.take 14 (hostOps0 (F := Ideal))) X (Proc.devRef .tc main_v6) = zeroK := by
    simp only [List.take]; after_results; rfl
  generalize StableHlo.after (List.take 14 (hostOps0 (F := Ideal))) X = Z at h2 h3 h6 ⊢
  simp only [List.drop]
  after_results
  rw [h2]
  funext i
  obtain ⟨u, j, rfl⟩ : ∃ (u : Fin 1) (j : Fin 1024), i = ix2 u j := ⟨i 0, i 1, eq_ix2 i⟩
  have hrow : (Cert.Spec.rowOf ((X (Proc.devRef .tc main_arg0) : S1.Idx → BitVec 32) (ix1 (0 : Fin 1)))).val < 128000 := Fin.isLt _
  have hfit : S128000x1024.Slices ![(Cert.Spec.rowOf ((X (Proc.devRef .tc main_arg0) : S1.Idx → BitVec 32) (ix1 (0 : Fin 1)))).val, 0] S1x1024 :=
    ⟨rfl, fun a => by
      match a with
      | ⟨0, _⟩ => show (Cert.Spec.rowOf _).val + 1 ≤ 128000; omega
      | ⟨1, _⟩ => show 0 + 1024 ≤ 1024; omega⟩
  show shapeCast S1x1024 (shapeCast S1024 (Host.dynamicSlice S1x1024 (X (Proc.devRef .tc main_arg2) : S128000x1024.Idx → EReal) _ sliceFits_S128000x1024_S1x1024) shapeCasts_S1x1024_S1024) shapeCasts_S1024_S1x1024 (ix2 u j) = _
  refine (shapeCast_a_1a_apply _ shapeCasts_S1024_S1x1024 u j).trans ?_
  refine (shapeCast_1a_a_apply _ shapeCasts_S1x1024_S1024 j).trans ?_
  refine (congrFun (Host.dynamicSlice_eq_extractStridedSlice_of_clamp S1x1024 _ _ sliceFits_S128000x1024_S1x1024
    ![(Cert.Spec.rowOf ((X (Proc.devRef .tc main_arg0) : S1.Idx → BitVec 32) (ix1 (0 : Fin 1)))).val, 0] (fun a => ?_) hfit) (ix2 (0 : Fin 1) j)).trans ?_
  · match a with
    | ⟨0, _⟩ =>
      show (min (max (BitVec.toInt ((Z (Proc.devRef .tc main_v3) : S_.Idx → BitVec 32) (Shape.Idx.first h_S_))) 0) ((128000 - 1 : ℕ) : Int)).toNat
        = (Cert.Spec.rowOf _).val
      rw [h3, selK_apply]
      show _ = min (Cert.Spec.selTok _).toInt.toNat 127999
      omega
    | ⟨1, _⟩ =>
      show (min (max (BitVec.toInt ((Z (Proc.devRef .tc main_v6) : S_.Idx → BitVec 32) (Shape.Idx.first h_S_))) 0) ((1024 - 1024 : ℕ) : Int)).toNat = 0
      rw [h6, zeroK_apply]
      rfl
  · refine (extractStridedSlice_apply _ _ hfit (ix2 (0 : Fin 1) j) (ix2 (Cert.Spec.rowOf ((X (Proc.devRef .tc main_arg0) : S1.Idx → BitVec 32) (ix1 (0 : Fin 1)))) j) (fun a => ?_)).trans rfl
    match a with
    | ⟨0, _⟩ => show (Cert.Spec.rowOf _).val = (Cert.Spec.rowOf _).val + 0; omega
    | ⟨1, _⟩ => show j.val = 0 + j.val; omega

end Cert.KernelIdeal.Hand

end
-- ==== Proof.KI.Result.lean ====
/-
  The kernel program's run on the extended reals with its two results named: the log-softmax of the logit row of the new
  hidden row, and the new hidden row as [1, 1, 1024], both as the specification's functions of the argument arrays.

  The last boundary's contents are read back segment by segment: the final reshape and the log-softmax stretch over
  region 1's exit contents, whose output array is the logit row of the buffers region 1 was entered with; among those the
  hidden row is region 0's output array, the new hidden row of the buffers region 0 was entered with; and those are the
  first host stretch's reshapes and row lookup of the arguments.
-/
import proofs.«180323_j40492951667511_2_alg».proof.Proof.KI.Frame
import proofs.«180323_j40492951667511_2_alg».proof.Proof.KI.Val
import proofs.«180323_j40492951667511_2_alg».proof.Proof.KI.Ends

set_option maxRecDepth 16384

noncomputable section

namespace Cert.KernelIdeal.Hand

open Idealize.ShloMosaic Idealize.ShloMosaic.TcCoe Idealize.ShloMosaic.StableHlo Idealize.ShloMosaic.ValueIdx
open Idealize.SL Idealize.SL.Sem
open Cert.KernelIdeal Cert.KernelIdeal.Gen

variable (m : (ℓ : Loc nD τ sig) → Buf (Elt Ideal) ℓ) (ρ : Dev nD → PrngReg)

/-- The new hidden row, of the arguments. -/
abbrev hNew (c : Dev nD) : Cert.Spec.Row 1024 :=
  Cert.Spec.gru (Cert.Spec.embRow (m ((c : Thread nD τ).loc main_arg0)) (m ((c : Thread nD τ).loc main_arg2)))
    (Cert.Spec.hidRow (m ((c : Thread nD τ).loc main_arg1)))
    (m ((c : Thread nD τ).loc main_arg3)) (m ((c : Thread nD τ).loc main_arg4)) (m ((c : Thread nD τ).loc main_arg5)) (m ((c : Thread nD τ).loc main_arg6))

/-! ## Region 0's entry contents, of the arguments -/

theorem V1_v9 (c : Dev nD) : (V1 m c main_v9 : S1x1024.Idx → EReal)
    = Cert.Spec.embRow (m ((c : Thread nD τ).loc main_arg0)) (m ((c : Thread nD τ).loc main_arg2)) :=
  ops0_v9 (W0 m c)

theorem V1_v10 (c : Dev nD) : (V1 m c main_v10 : S1x1024.Idx → EReal) = Cert.Spec.hidRow (m ((c : Thread nD τ).loc main_arg1)) := by
  refine (ops0_v10 (W0 m c)).trans ?_
  funext i
  obtain ⟨u, j, rfl⟩ : ∃ (u : Fin 1) (j : Fin 1024), i = ix2 u j := ⟨i 0, i 1, eq_ix2 i⟩
  obtain rfl : u = 0 := Subsingleton.elim _ _
  exact shapeCast_1ab_ab_apply _ shapeCasts_S1x1x1024_S1x1024 (0 : Fin 1) j

theorem V1_v11 (c : Dev nD) : (fun q : S3072.Idx => (V1 m c main_v11 : S1x3072.Idx → EReal) (ix2 (0 : Fin 1) (q 0)))
    = m ((c : Thread nD τ).loc main_arg5) := by
  funext q
  rw [show (V1 m c main_v11 : S1x3072.Idx → EReal) = _ from ops0_v11 (W0 m c)]
  refine (shapeCast_a_1a_apply _ shapeCasts_S3072_S1x3072 (0 : Fin 1) (q 0)).trans ?_
  exact congrArg (m ((c : Thread nD τ).loc main_arg5)) (eq_ix1 q).symm

theorem V1_v12 (c : Dev nD) : (fun q : S3072.Idx => (V1 m c main_v12 : S1x3072.Idx → EReal) (ix2 (0 : Fin 1) (q 0)))
    = m ((c : Thread nD τ).loc main_arg6) := by
  funext q
  rw [show (V1 m c main_v12 : S1x3072.Idx → EReal) = _ from ops0_v12 (W0 m c)]
  refine (shapeCast_a_1a_apply _ shapeCasts_S3072_S1x3072 (0 : Fin 1) (q 0)).trans ?_
  exact congrArg (m ((c : Thread nD τ).loc main_arg6)) (eq_ix1 q).symm

theorem V1_arg3 (c : Dev nD) : V1 m c main_arg3 = m ((c : Thread nD τ).loc main_arg3) := ops0_arg3 (W0 m c)
theorem V1_arg4 (c : Dev nD) : V1 m c main_arg4 = m ((c : Thread nD τ).loc main_arg4) := ops0_arg4 (W0 m c)

/-- Region 0 leaves the new hidden row in its output array. -/
theorem W2_v13 (c : Dev nD) : (W2 m c (Proc.devRef .tc main_v13) : S1x1024.Idx → EReal) = hNew m c := by
  refine ((W2_arr m c 6).trans (final0 (V1 m) c)).trans ?_
  unfold G0 hNew Cert.Spec.gru
  rw [V1_v9 m c, V1_v10 m c, V1_v11 m c, V1_v12 m c, V1_arg3 m c, V1_arg4 m c]

/-! ## Region 1's entry contents -/

theorem V3_v13 (c : Dev nD) : (V3 m c main_v13 : S1x1024.Idx → EReal) = hNew m c :=
  (StableHlo.after_of_writes_sub hostOps1 _ hostOps1_writes (by decide)).trans (W2_v13 m c)

theorem V3_arg7 (c : Dev nD) : V3 m c main_arg7 = m ((c : Thread nD τ).loc main_arg7) :=
  (StableHlo.after_of_writes_sub hostOps1 _ hostOps1_writes (by decide)).trans <|
  (W2_of_ne m c main_arg7 (by decide)).trans <|
  (StableHlo.after_of_writes_sub hostOps0 _ hostOps0_writes (by decide)).trans rfl

theorem W2_arg8 (c : Dev nD) : W2 m c (Proc.devRef .tc main_arg8) = m ((c : Thread nD τ).loc main_arg8) :=
  (W2_of_ne m c main_arg8 (by decide)).trans <|
  (StableHlo.after_of_writes_sub hostOps0 _ hostOps0_writes (by decide)).trans rfl

theorem V3_v14 (c : Dev nD) : (fun q : S128000.Idx => (V3 m c main_v14 : S1x128000.Idx → EReal) (ix2 (0 : Fin 1) (q 0)))
    = m ((c : Thread nD τ).loc main_arg8) := by
  funext q
  rw [show (V3 m c main_v14 : S1x128000.Idx → EReal) = _ from ops1_v14 (W2 m c), W2_arg8 m c]
  refine (shapeCast_a_1a_apply _ shapeCasts_S128000_S1x128000 (0 : Fin 1) (q 0)).trans ?_
  exact congrArg (m ((c : Thread nD τ).loc main_arg8)) (eq_ix1 q).symm

/-- Region 1 leaves the logit row in its output array. -/
theorem W4_v15 (c : Dev nD) : (W4 m c (Proc.devRef .tc main_v15) : S1x128000.Idx → EReal)
    = Cert.Spec.logit (hNew m c) (m ((c : Thread nD τ).loc main_arg7)) (m ((c : Thread nD τ).loc main_arg8)) := by
  refine ((W4_arr m c 3).trans (final1 (V3 m) c)).trans ?_
  unfold G1 Cert.Spec.logit
  rw [V3_v13 m c, V3_arg7 m c, V3_v14 m c]

/-! ## The two results -/

theorem W6_v16 (c : Dev nD) : (W6 m c (Proc.devRef .tc main_v16) : S1x128000.Idx → EReal)
    = tailK (Cert.Spec.logit (hNew m c) (m ((c : Thread nD τ).loc main_arg7)) (m ((c : Thread nD τ).loc main_arg8))) :=
  (StableHlo.after_of_writes_sub hostOps2_1 _ hostOps2_1_writes (by decide)).trans <|
  (ops2_v16 (W4 m c)).trans (congrArg tailK (W4_v15 m c))

theorem W5_v13 (c : Dev nD) : (W5 m c (Proc.devRef .tc main_v13) : S1x1024.Idx → EReal) = hNew m c :=
  (StableHlo.after_of_writes_sub hostOps2 _ hostOps2_writes (by decide)).trans <|
  (show W4 m c (Proc.devRef .tc main_v13) = W3 m c (Proc.devRef .tc main_v13) from W4_in m c 0 rfl).trans (V3_v13 m c)

theorem W6_v17 (c : Dev nD) : (W6 m c (Proc.devRef .tc main_v17) : S1x1x1024.Idx → EReal)
    = fun i => hNew m c (ix2 (0 : Fin 1) (i 2)) := by
  refine (ops2_1_v17 (W5 m c)).trans ?_
  rw [W5_v13 m c]
  funext i
  obtain ⟨a, b, j, rfl⟩ : ∃ (a : Fin 1) (b : Fin 1) (j : Fin 1024), i = ix3 a b j := ⟨i 0, i 1, i 2, eq_ix3 i⟩
  obtain rfl : b = 0 := Subsingleton.elim _ _
  exact shapeCast_ab_1ab_apply _ shapeCasts_S1x1024_S1x1x1024 a (0 : Fin 1) j

/-- THE KERNEL PROGRAM'S RUN on the extended reals: every weakly fair execution terminates, nothing faulting, with the two
    results at the specification's functions of the argument arrays, and the argument arrays as launched. -/
theorem run : θ_run (defs (F := Ideal)) (onTc (τ := τ) (main (F := Ideal))) ⟨m, fun _ => 0, ρ⟩ (fun r => ∀ c : Dev nD,
      r.2.mem ((c.tc : Thread nD τ).loc main_v16)
        = tailK (Cert.Spec.logit (hNew m c) (m ((c : Thread nD τ).loc main_arg7)) (m ((c : Thread nD τ).loc main_arg8)))
      ∧ r.2.mem ((c.tc : Thread nD τ).loc main_v17) = (fun i => hNew m c (ix2 (0 : Fin 1) (i 2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨
      (h c _ (mem_uc main_v16 (by decide))).trans (W6_v16 m c),
      (h c _ (mem_uc main_v17 (by decide))).trans (W6_v17 m c),
      (h c _ (mem_uc main_arg0 (by decide))).trans (W6_main_arg0 m c),
      (h c _ (mem_uc main_arg1 (by decide))).trans (W6_main_arg1 m c),
      (h c _ (mem_uc main_arg2 (by decide))).trans (W6_main_arg2 m c),
      (h c _ (mem_uc main_arg3 (by decide))).trans (W6_main_arg3 m c),
      (h c _ (mem_uc main_arg4 (by decide))).trans (W6_main_arg4 m c),
      (h c _ (mem_uc main_arg5 (by decide))).trans (W6_main_arg5 m c),
      (h c _ (mem_uc main_arg6 (by decide))).trans (W6_main_arg6 m c),
      (h c _ (mem_uc main_arg7 (by decide))).trans (W6_main_arg7 m c),
      (h c _ (mem_uc main_arg8 (by decide))).trans (W6_main_arg8 m c)⟩) (run_all m ρ)

end Cert.KernelIdeal.Hand

end
-- ==== Proof.RefVal.lean ====
/-
  The reference computes the specification.

  The reference program is a straight line of host operations.  Read one operation at a time and index by index, its
  values are: the token word wrapped and the one embedding row it selects (a gather of one row, whose start index is
  clamped into the table); the two affine maps of the gates as sums over the 1024 hidden coordinates; the three gates
  (the sigmoid is printed as 1 / (1 + exp (−x)), which is the logistic function by definition once the word
  0x3F800000 is read as 1); the new hidden row; the logits as one more affine map.  The log-softmax that follows is
  kept as ONE function of the row of logits and is never evaluated.
-/
import proofs.«180323_j40492951667511_2_alg».proof.Proof.RefRead
import proofs.«180323_j40492951667511_2_alg».proof.Proof.Spec

noncomputable section

open scoped BigOperators

namespace Cert.RefSide

open Cert.ReferenceIdeal Cert.ReferenceIdeal.Gen Idealize.ShloMosaic Idealize.ShloMosaic.TcCoe Idealize.SL.Sem
open Idealize.ShloMosaic.StableHlo Idealize.ShloMosaic.ValueIdx Cert.ReferenceIdeal.ReadP

/-! ## Two small facts -/

/-- The gather of one row of a [128000, 1024] table at a [1, 1] start index, read at (u, j): the table at the row the
    start index names (read signed, clamped into 0 … 127999) and column j. -/
theorem gather_row_apply {α : Type} (x : S128000x1024.Idx → α) (idx : IVec S1x1 32) (u : Fin 1) (j : Fin 1024) :
    Host.gather gather_S128000x1024_S1x1_S1x1024_1_0_n_n_0_1_11024 x idx (ix2 u j)
      = x (ix2 (⟨min (idx (ix2 0 0)).toInt.toNat 127999, by omega⟩ : Fin 128000) j) := by
  unfold Host.gather
  refine congrArg x ?_
  funext a
  refine Fin.ext ?_
  match a with
  | ⟨0, _⟩ =>
    show gather_S128000x1024_S1x1_S1x1024_1_0_n_n_0_1_11024.start (ix2 u j) idx 0
        + gather_S128000x1024_S1x1_S1x1024_1_0_n_n_0_1_11024.batchCoord (ix2 u j) 0
        + gather_S128000x1024_S1x1_S1x1024_1_0_n_n_0_1_11024.offCoord (ix2 u j) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S128000x1024_S1x1_S1x1024_1_0_n_n_0_1_11024.startIndexMap from List.mem_singleton.mpr rfl)]
    have hsi : gather_S128000x1024_S1x1_S1x1024_1_0_n_n_0_1_11024.siIdx (ix2 u j)
        ⟨List.idxOf (0 : Fin 2) gather_S128000x1024_S1x1_S1x1024_1_0_n_n_0_1_11024.startIndexMap,
          List.idxOf_lt_length_iff.2 (List.mem_singleton.mpr rfl)⟩ = ix2 0 0 := by
      funext b; refine Fin.ext ?_
      match b with
      | ⟨0, _⟩ => exact Nat.lt_one_iff.mp u.isLt
      | ⟨1, _⟩ => rfl
    rw [hsi]
    rfl
  | ⟨1, _⟩ =>
    show gather_S128000x1024_S1x1_S1x1024_1_0_n_n_0_1_11024.start (ix2 u j) idx 1
        + gather_S128000x1024_S1x1_S1x1024_1_0_n_n_0_1_11024.batchCoord (ix2 u j) 1
        + gather_S128000x1024_S1x1_S1x1024_1_0_n_n_0_1_11024.offCoord (ix2 u j) 1 = j.val
    rw [GatherDims.batchCoord_eq_zero _ _ _ List.not_mem_nil]
    unfold GatherDims.start
    rw [dif_neg (show ¬ (1 : Fin 2) ∈ gather_S128000x1024_S1x1_S1x1024_1_0_n_n_0_1_11024.startIndexMap by decide)]
    simp only [Nat.add_zero, Nat.zero_add]
    unfold GatherDims.offCoord
    rw [dif_pos (show (1 : Fin 2) ∈ gather_S128000x1024_S1x1_S1x1024_1_0_n_n_0_1_11024.sKept by decide)]
    rfl

/-- The word 0x3F800000 read as a single-precision number is 1. -/
theorem ofBits_one : Ideal.ofBits .f32 0x3F800000#32 = 1 := by
  simp [Ideal.ofBits, Ideal.ieee, -EReal.coe_mul]; norm_num

/-! ## The embedding row and the previous hidden row -/

/-- The wrapped token word, as the reference computes it (compare with 0, add 128000, select). -/
theorem tok_apply (x0 : (⟨S1, .i32⟩ : BufTy).Contents (Elt Ideal)) :
    val_main_v5 (F := Ideal) x0 (ix2 0 0) = Cert.Spec.selTok (x0 (ix1 0)) := by
  rw [val_main_v5_apply]
  have e : idx_main_v5 (ix2 (0 : Fin 1) (0 : Fin 1)) = ix1 (0 : Fin 1) := funext fun a => Fin.ext (by
    match a with | ⟨0, _⟩ => rfl)
  rw [e]
  rfl

/-- The gathered row, after its two reshapes, is the specification's embedding row. -/
theorem emb_eq (x0 : (⟨S1, .i32⟩ : BufTy).Contents (Elt Ideal)) (x2 : (⟨S128000x1024, .f32⟩ : BufTy).Contents (Elt Ideal)) :
    val_main_v8 (F := Ideal) x0 x2 = Cert.Spec.embRow x0 x2 := by
  funext i
  obtain ⟨u, j, rfl⟩ : ∃ (u : Fin 1) (j : Fin 1024), i = ix2 u j := ⟨i 0, i 1, eq_ix2 i⟩
  obtain rfl : u = 0 := Subsingleton.elim _ _
  rw [val_main_v8_apply, val_main_v7_apply]
  have e : idx_main_v7 (idx_main_v8 (ix2 (0 : Fin 1) j)) = ix2 (0 : Fin 1) j := funext fun a => Fin.ext (by
    match a with
    | ⟨0, _⟩ => rfl
    | ⟨1, _⟩ => show ((0 * 1 + 0) * 1024 + ((0 * 1024 + j.val) % 1024)) % 1024 = j.val; omega)
  rw [e]
  unfold val_main_v6
  rw [gather_row_apply]
  unfold Cert.Spec.embRow Cert.Spec.rowOf
  refine congrArg x2 (funext fun a => Fin.ext ?_)
  match a with
  | ⟨0, _⟩ =>
    show min (val_main_v5 (F := Ideal) x0 (ix2 0 0)).toInt.toNat 127999 = min (Cert.Spec.selTok (x0 (ix1 0))).toInt.toNat 127999
    rw [tok_apply]
  | ⟨1, _⟩ => rfl

/-- The previous hidden state, reshaped to a row, is the specification's hidden row. -/
theorem hid_eq (x1 : (⟨S1x1x1024, .f32⟩ : BufTy).Contents (Elt Ideal)) :
    val_main_v9 (F := Ideal) x1 = Cert.Spec.hidRow x1 := by
  funext i
  obtain ⟨u, j, rfl⟩ : ∃ (u : Fin 1) (j : Fin 1024), i = ix2 u j := ⟨i 0, i 1, eq_ix2 i⟩
  obtain rfl : u = 0 := Subsingleton.elim _ _
  rw [val_main_v9_apply]
  unfold Cert.Spec.hidRow
  refine congrArg x1 (funext fun a => Fin.ext ?_)
  match a with
  | ⟨0, _⟩ => rfl
  | ⟨1, _⟩ => rfl
  | ⟨2, _⟩ => show (0 * 1024 + j.val) % 1024 = j.val; omega

/-! ## The two affine maps of the gates, at a column -/

/-- The input-side pre-activation at column q is the specification's affine map of the embedding row. -/
theorem gate_ih (x0 : (⟨S1, .i32⟩ : BufTy).Contents (Elt Ideal)) (x2 : (⟨S128000x1024, .f32⟩ : BufTy).Contents (Elt Ideal))
    (x3 : (⟨S3072x1024, .f32⟩ : BufTy).Contents (Elt Ideal)) (x5 : (⟨S3072, .f32⟩ : BufTy).Contents (Elt Ideal)) (q : Fin 3072) :
    val_main_v13 (F := Ideal) x0 x2 x3 x5 (ix2 (0 : Fin 1) q) = Cert.Spec.gate (val_main_v8 (F := Ideal) x0 x2) x3 x5 q := by
  rw [val_main_v13_apply, val_main_v11_apply, val_main_v12_apply, Ideal.addf_def]
  unfold Cert.Spec.gate
  refine congrArg₂ (· + ·) (Finset.sum_congr rfl fun k _ => ?_) (congrArg x5 (funext fun a => Fin.ext ?_))
  · refine congrArg₂ (· * ·) (congrArg _ (funext fun a => Fin.ext ?_))
      ((val_main_v10_apply x3 _).trans (congrArg x3 (funext fun a => Fin.ext ?_)))
    · match a with | ⟨0, _⟩ => rfl | ⟨1, _⟩ => rfl
    · match a with | ⟨0, _⟩ => rfl | ⟨1, _⟩ => rfl
  · match a with | ⟨0, _⟩ => rfl

/-- The hidden-side pre-activation at column q is the specification's affine map of the previous hidden row. -/
theorem gate_hh (x1 : (⟨S1x1x1024, .f32⟩ : BufTy).Contents (Elt Ideal)) (x4 : (⟨S3072x1024, .f32⟩ : BufTy).Contents (Elt Ideal))
    (x6 : (⟨S3072, .f32⟩ : BufTy).Contents (Elt Ideal)) (q : Fin 3072) :
    val_main_v17 (F := Ideal) x1 x4 x6 (ix2 (0 : Fin 1) q) = Cert.Spec.gate (val_main_v9 (F := Ideal) x1) x4 x6 q := by
  rw [val_main_v17_apply, val_main_v15_apply, val_main_v16_apply, Ideal.addf_def]
  unfold Cert.Spec.gate
  refine congrArg₂ (· + ·) (Finset.sum_congr rfl fun k _ => ?_) (congrArg x6 (funext fun a => Fin.ext ?_))
  · refine congrArg₂ (· * ·) (congrArg _ (funext fun a => Fin.ext ?_))
      ((val_main_v14_apply x4 _).trans (congrArg x4 (funext fun a => Fin.ext ?_)))
    · match a with | ⟨0, _⟩ => rfl | ⟨1, _⟩ => rfl
    · match a with | ⟨0, _⟩ => rfl | ⟨1, _⟩ => rfl
  · match a with | ⟨0, _⟩ => rfl

/-! ## The new hidden row -/

/-- The reference's new hidden row is the specification's. -/
theorem gru_eq (x0 : (⟨S1, .i32⟩ : BufTy).Contents (Elt Ideal)) (x1 : (⟨S1x1x1024, .f32⟩ : BufTy).Contents (Elt Ideal))
    (x2 : (⟨S128000x1024, .f32⟩ : BufTy).Contents (Elt Ideal)) (x3 x4 : (⟨S3072x1024, .f32⟩ : BufTy).Contents (Elt Ideal))
    (x5 x6 : (⟨S3072, .f32⟩ : BufTy).Contents (Elt Ideal)) :
    val_main_v45 (F := Ideal) x0 x1 x2 x3 x4 x5 x6
      = Cert.Spec.gru (Cert.Spec.embRow x0 x2) (Cert.Spec.hidRow x1) x3 x4 x5 x6 := by
  funext i
  obtain ⟨u, j, rfl⟩ : ∃ (u : Fin 1) (j : Fin 1024), i = ix2 u j := ⟨i 0, i 1, eq_ix2 i⟩
  obtain rfl : u = 0 := Subsingleton.elim _ _
  have e18 : idx_main_v18 (ix2 (0 : Fin 1) j) = ix2 (0 : Fin 1) (⟨j.val, by omega⟩ : Fin 3072) :=
    funext fun a => Fin.ext (by match a with | ⟨0, _⟩ => rfl | ⟨1, _⟩ => rfl)
  have e19 : idx_main_v19 (ix2 (0 : Fin 1) j) = ix2 (0 : Fin 1) (⟨j.val + 1024, by omega⟩ : Fin 3072) :=
    funext fun a => Fin.ext (by match a with | ⟨0, _⟩ => rfl | ⟨1, _⟩ => exact Nat.add_comm _ _)
  have e20 : idx_main_v20 (ix2 (0 : Fin 1) j) = ix2 (0 : Fin 1) (⟨j.val + 2048, by omega⟩ : Fin 3072) :=
    funext fun a => Fin.ext (by match a with | ⟨0, _⟩ => rfl | ⟨1, _⟩ => exact Nat.add_comm _ _)
  have e21 : idx_main_v21 (ix2 (0 : Fin 1) j) = ix2 (0 : Fin 1) (⟨j.val, by omega⟩ : Fin 3072) :=
    funext fun a => Fin.ext (by match a with | ⟨0, _⟩ => rfl | ⟨1, _⟩ => rfl)
  have e22 : idx_main_v22 (ix2 (0 : Fin 1) j) = ix2 (0 : Fin 1) (⟨j.val + 1024, by omega⟩ : Fin 3072) :=
    funext fun a => Fin.ext (by match a with | ⟨0, _⟩ => rfl | ⟨1, _⟩ => exact Nat.add_comm _ _)
  have e23 : idx_main_v23 (ix2 (0 : Fin 1) j) = ix2 (0 : Fin 1) (⟨j.val + 2048, by omega⟩ : Fin 3072) :=
    funext fun a => Fin.ext (by match a with | ⟨0, _⟩ => rfl | ⟨1, _⟩ => exact Nat.add_comm _ _)
  rw [val_main_v45_apply, val_main_v43_apply, val_main_v44_apply, val_main_v42_apply, val_main_v40_apply,
    val_main_v39_apply, val_main_v38_apply, val_main_v37_apply, val_main_v35_apply, val_main_v33_apply,
    val_main_v32_apply, val_main_v31_apply, val_main_v30_apply, val_main_v28_apply, val_main_v26_apply,
    val_main_v25_apply, val_main_v24_apply,
    val_main_v41_apply, val_main_v36_apply, val_main_v34_apply, val_main_v29_apply, val_main_v27_apply,
    val_main_cst_4_apply, val_main_cst_3_apply, val_main_cst_2_apply, val_main_cst_1_apply, val_main_cst_apply,
    val_main_v18_apply, val_main_v19_apply, val_main_v20_apply, val_main_v21_apply, val_main_v22_apply, val_main_v23_apply,
    e18, e19, e20, e21, e22, e23]
  simp only [gate_ih, gate_hh]
  rw [emb_eq, hid_eq]
  unfold Cert.Spec.gru Cert.Spec.gruAt
  simp only [Ideal.ofBits_def, ofBits_one]
  rfl

/-! ## The logits -/

/-- The reference's logits are the specification's affine map of the new hidden row. -/
theorem logit_eq (x0 : (⟨S1, .i32⟩ : BufTy).Contents (Elt Ideal)) (x1 : (⟨S1x1x1024, .f32⟩ : BufTy).Contents (Elt Ideal))
    (x2 : (⟨S128000x1024, .f32⟩ : BufTy).Contents (Elt Ideal)) (x3 x4 : (⟨S3072x1024, .f32⟩ : BufTy).Contents (Elt Ideal))
    (x5 x6 : (⟨S3072, .f32⟩ : BufTy).Contents (Elt Ideal)) (x7 : (⟨S128000x1024, .f32⟩ : BufTy).Contents (Elt Ideal))
    (x8 : (⟨S128000, .f32⟩ : BufTy).Contents (Elt Ideal)) :
    val_main_v49 (F := Ideal) x0 x1 x2 x3 x4 x5 x6 x7 x8
      = Cert.Spec.logit (val_main_v45 (F := Ideal) x0 x1 x2 x3 x4 x5 x6) x7 x8 := by
  funext i
  obtain ⟨u, v, rfl⟩ : ∃ (u : Fin 1) (v : Fin 128000), i = ix2 u v := ⟨i 0, i 1, eq_ix2 i⟩
  obtain rfl : u = 0 := Subsingleton.elim _ _
  rw [val_main_v49_apply, val_main_v47_apply, val_main_v48_apply, Ideal.addf_def]
  unfold Cert.Spec.logit Cert.Spec.logitAt
  refine congrArg₂ (· + ·) (Finset.sum_congr rfl fun k _ => ?_) (congrArg x8 (funext fun a => Fin.ext ?_))
  · refine congrArg₂ (· * ·) (congrArg _ (funext fun a => Fin.ext ?_))
      ((val_main_v46_apply x7 _).trans (congrArg x7 (funext fun a => Fin.ext ?_)))
    · match a with | ⟨0, _⟩ => rfl | ⟨1, _⟩ => rfl
    · match a with | ⟨0, _⟩ => rfl | ⟨1, _⟩ => rfl
  · match a with | ⟨0, _⟩ => rfl

/-! ## The log-softmax, kept as one function of the row of logits -/

/-- The reference's log-softmax of a [1, 128000] row, as its composed host operations: the row minus its maximum
    (the maximum taken against −∞, broadcast back over the row), minus the logarithm of the sum of the exponentials
    of those differences (broadcast back over the row). -/
def tail (x : FVec Ideal S1x128000 .f32) : FVec Ideal S1x128000 .f32 :=
  subf
    (subf x
      (broadcastInDim S1x128000 ![0, 1] bcast_S1x1_S1x128000_0_1
        (broadcastInDim S1x1 ![0] bcast_S1_S1x1_0
          (maximumf (broadcastInDim S1 ![] bcast_S_S1 (constant (F := Ideal) S_ .f32 0xFF800000#32))
            (Host.reduce (FloatOps.maximumf (F := Ideal)) x (constant (F := Ideal) S_ .f32 0xFF800000#32)
              reducesTo_S1x128000_S1_d1 h_S_)))))
    (broadcastInDim S1x128000 ![0, 1] bcast_S1x1_S1x128000_0_1
      (Host.log (F := Ideal)
        (broadcastInDim S1x1 ![0] bcast_S1_S1x1_0
          (Host.reduceAdd (F := Ideal)
            (Host.exp (F := Ideal)
              (subf x
                (broadcastInDim S1x128000 ![0, 1] bcast_S1x1_S1x128000_0_1
                  (broadcastInDim S1x1 ![0] bcast_S1_S1x1_0
                    (maximumf (broadcastInDim S1 ![] bcast_S_S1 (constant (F := Ideal) S_ .f32 0xFF800000#32))
                      (Host.reduce (FloatOps.maximumf (F := Ideal)) x (constant (F := Ideal) S_ .f32 0xFF800000#32)
                        reducesTo_S1x128000_S1_d1 h_S_))))))
            (constant (F := Ideal) S_ .f32 0x00000000#32) reducesTo_S1x128000_S1_d1 h_S_))))

/-- The reference's first result is that function of its row of logits: the fifteen operations of the outlined
    log-softmax, opened down to the logits and no further. -/
theorem tail_eq (x0 : (⟨S1, .i32⟩ : BufTy).Contents (Elt Ideal)) (x1 : (⟨S1x1x1024, .f32⟩ : BufTy).Contents (Elt Ideal))
    (x2 : (⟨S128000x1024, .f32⟩ : BufTy).Contents (Elt Ideal)) (x3 x4 : (⟨S3072x1024, .f32⟩ : BufTy).Contents (Elt Ideal))
    (x5 x6 : (⟨S3072, .f32⟩ : BufTy).Contents (Elt Ideal)) (x7 : (⟨S128000x1024, .f32⟩ : BufTy).Contents (Elt Ideal))
    (x8 : (⟨S128000, .f32⟩ : BufTy).Contents (Elt Ideal)) :
    val_main_v50 (F := Ideal) x0 x1 x2 x3 x4 x5 x6 x7 x8 = tail (val_main_v49 (F := Ideal) x0 x1 x2 x3 x4 x5 x6 x7 x8) := by
  unfold val_main_v50 val_main_call0_v10 val_main_call0_v9 val_main_call0_v8 val_main_call0_v7 val_main_call0_v6
    val_main_call0_v5 val_main_call0_v4 val_main_call0_v3 val_main_call0_v2 val_main_call0_v1 val_main_call0_v0
    val_main_call0_cst val_main_call0_cst_0 val_main_call0_cst_1 tail
  generalize val_main_v49 (F := Ideal) x0 x1 x2 x3 x4 x5 x6 x7 x8 = y
  with_reducible rfl

/-- The reference's second result, read at an index, is the new hidden row at the index's last coordinate. -/
theorem hid_out_eq (x0 : (⟨S1, .i32⟩ : BufTy).Contents (Elt Ideal)) (x1 : (⟨S1x1x1024, .f32⟩ : BufTy).Contents (Elt Ideal))
    (x2 : (⟨S128000x1024, .f32⟩ : BufTy).Contents (Elt Ideal)) (x3 x4 : (⟨S3072x1024, .f32⟩ : BufTy).Contents (Elt Ideal))
    (x5 x6 : (⟨S3072, .f32⟩ : BufTy).Contents (Elt Ideal)) :
    val_main_v51 (F := Ideal) x0 x1 x2 x3 x4 x5 x6
      = fun i => Cert.Spec.gru (Cert.Spec.embRow x0 x2) (Cert.Spec.hidRow x1) x3 x4 x5 x6 (ix2 (0 : Fin 1) (i 2)) := by
  funext i
  rw [val_main_v51_apply, gru_eq]
  refine congrArg _ (funext fun a => Fin.ext ?_)
  match a with | ⟨0, _⟩ => rfl | ⟨1, _⟩ => rfl

/-! ## The reference's run, at the specification -/

/-- On every device, from any memory with zero counters, every weakly fair execution of the reference terminates
    with its first result at the log-softmax of the specification's logits of the specification's new hidden row, its
    second result at that hidden row, and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v50)
        = tail (Cert.Spec.logit
            (Cert.Spec.gru (Cert.Spec.embRow (m ((c.tc : Thread nD τ).loc main_arg0)) (m ((c.tc : Thread nD τ).loc main_arg2)))
              (Cert.Spec.hidRow (m ((c.tc : Thread nD τ).loc main_arg1)))
              (m ((c.tc : Thread nD τ).loc main_arg3)) (m ((c.tc : Thread nD τ).loc main_arg4))
              (m ((c.tc : Thread nD τ).loc main_arg5)) (m ((c.tc : Thread nD τ).loc main_arg6)))
            (m ((c.tc : Thread nD τ).loc main_arg7)) (m ((c.tc : Thread nD τ).loc main_arg8)))
      ∧ r.2.mem ((c.tc : Thread nD τ).loc main_v51)
        = (fun i => Cert.Spec.gru (Cert.Spec.embRow (m ((c.tc : Thread nD τ).loc main_arg0)) (m ((c.tc : Thread nD τ).loc main_arg2)))
              (Cert.Spec.hidRow (m ((c.tc : Thread nD τ).loc main_arg1)))
              (m ((c.tc : Thread nD τ).loc main_arg3)) (m ((c.tc : Thread nD τ).loc main_arg4))
              (m ((c.tc : Thread nD τ).loc main_arg5)) (m ((c.tc : Thread nD τ).loc main_arg6)) (ix2 (0 : Fin 1) (i 2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run (defs (F := Ideal)) _ _).mono
    (fun _ h c =>
      ⟨(h c).1.trans ((val_main_v50_eq m c).trans ((tail_eq _ _ _ _ _ _ _ _ _).trans
          (congrArg tail ((logit_eq _ _ _ _ _ _ _ _ _).trans (congrArg (fun g => Cert.Spec.logit g _ _) (gru_eq _ _ _ _ _ _ _)))))),
        (h c).2.1.trans ((val_main_v51_eq m c).trans (hid_out_eq _ _ _ _ _ _ _)),
        (h c).2.2⟩)
    (Cert.ReferenceIdeal.ValueP.run (F := Ideal) m ρ)

end Cert.RefSide

end
-- ==== Proof.lean ====
/-
  One decoder step — a row of the embedding table, a single-step GRU cell, the output projection over a vocabulary of
  128000 and its log-softmax — as a program of two kernel regions among host operations, against the same step written
  with whole-array operations.

  On the extended reals both programs compute ONE function of the nine argument arrays (Spec.lean).  The token word
  selects the same table row on both sides (a wrap of a negative word, then a start clamped into the table: a dynamic
  slice there, a gather here).  Each gate pre-activation is the same plain sum over the 1024 hidden coordinates of
  x[k] · W[q, k] plus the bias: the kernel multiplies by the transposed operand inside the product, the reference
  transposes first.  The logistic function of the kernel is by definition 1 / (1 + exp(−x)), which the reference spells
  out; tanh, the products and sums are the same.  The logits are again the same sums, computed tile by tile over fifty
  column ranges that tile the vocabulary.  The log-softmax is the same composition of host operations on both sides and
  is never opened: only its argument is shown equal.  No finiteness is needed: no law of arithmetic is used beyond
  reading both sides index by index.

  The frames: the kernel program's run is six segments (host stretch, region, reshape, region, log-softmax, reshape),
  each region's body a whole-buffer load-compute-store, the run ending with every buffer at known contents, from which
  the unchanged arguments and the results are read (K/ at the word level, KI/ on the extended reals); the reference
  has no kernel and its run is its list of operations.
-/
import proofs.«180323_j40492951667511_2_alg».proof.Defs
import proofs.«180323_j40492951667511_2_alg».proof.Proof.Gen.Kernel
import proofs.«180323_j40492951667511_2_alg».proof.Proof.Gen.KernelIdeal
import proofs.«180323_j40492951667511_2_alg».proof.Proof.Gen.ReferenceIdeal
import proofs.«180323_j40492951667511_2_alg».proof.Proof.Gen.Pre_finite_inputs
import proofs.«180323_j40492951667511_2_alg».proof.Proof.K.Frame
import proofs.«180323_j40492951667511_2_alg».proof.Proof.KI.Result
import proofs.«180323_j40492951667511_2_alg».proof.Proof.RefVal
import Idealize.ShloMosaic.Adequacy
import Idealize.ShloMosaic.Init

set_option maxRecDepth 16384

noncomputable section

namespace Cert.Proof

open Idealize.ShloMosaic Idealize.SL.Sem

theorem frame_k : Cert.frame_Kernel := fun m ρ _ => Cert.Kernel.Hand.frame m ρ
theorem frame_ki : Cert.frame_KernelIdeal := fun m ρ _ => Cert.KernelIdeal.Hand.frame m ρ
theorem frame_ri : Cert.frame_ReferenceIdeal := fun m ρ _ =>
  (θ_run Cert.ReferenceIdeal.defs _ _).mono (fun _ h c => (h c).2.2) (Cert.RefSide.run m ρ)

/-- The idealization rewrote nothing. -/
theorem preserves : Cert.preserves_Kernel_KernelIdeal := trivial

/-- The two programs' log-softmax stretches are the same function of the logit row. -/
theorem tail_eq (x : FVec Ideal Cert.KernelIdeal.S1x128000 .f32) : Cert.KernelIdeal.Hand.tailK x = Cert.RefSide.tail x := rfl

theorem algebraic : Cert.algebraic_KernelIdeal_ReferenceIdeal := by
  intro m ρ m' ρ' _ hagree
  refine ⟨_, _, Cert.KernelIdeal.Hand.run m ρ, ?_⟩
  refine (θ_run Cert.ReferenceIdeal.defs _ _).mono (fun _ h c => ?_) (Cert.RefSide.run m' ρ')
  obtain ⟨h0, h1, hrest⟩ := h c
  obtain ⟨a0, a1, a2, a3, a4, a5, a6, a7, a8⟩ := hagree c
  refine ⟨h0.trans ?_, h1.trans ?_, hrest⟩
  · rw [a0, a1, a2, a3, a4, a5, a6, a7, a8]
    exact (tail_eq _).symm
  · rw [a0, a1, a2, a3, a4, a5, a6]
    rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
